-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x32 : Shape := ⟨2, ![50000, 32]⟩
abbrev S50000x1 : Shape := ⟨2, ![50000, 1]⟩
abbrev S2x800000 : Shape := ⟨2, ![2, 800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S50000x1 : S_.BroadcastsInDim S50000x1 (![] : Fin 0 → Fin S50000x1.rank)
  reducesTo_S50000x1_S_d0_1 : S50000x1.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x64 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S128x128 .f32) (main_arg9 : FVec F S128 .f32) (main_arg10 : FVec F S128x64 .f32) (main_arg11 : FVec F S64 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : FVec F S50000x32 .f32) (main_arg2 : FVec F S50000x1 .f32) (main_arg3 : IVec S2x800000 32) (main_arg4 : FVec F S192x128 .f32) (main_arg5 : FVec F S128 .f32) (main_arg6 : FVec F S128x64 .f32) (main_arg7 : FVec F S64 .f32) (main_arg8 : FVec F S128x128 .f32) (main_arg9 : FVec F S128 .f32) (main_arg10 : FVec F S128x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S192x128 .f32 := Host.absf main_arg4
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S50000x32 : Shape := ⟨2, ![50000, 32]⟩
abbrev S50000x1 : Shape := ⟨2, ![50000, 1]⟩
abbrev S2x800000 : Shape := ⟨2, ![2, 800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x32 : Shape := ⟨2, ![800000, 32]⟩
abbrev S64x128 : Shape := ⟨2, ![64, 128]⟩
abbrev S32x128 : Shape := ⟨2, ![32, 128]⟩
abbrev S1x128 : Shape := ⟨2, ![1, 128]⟩
abbrev S1x64 : Shape := ⟨2, ![1, 64]⟩
abbrev S8000x64 : Shape := ⟨2, ![8000, 64]⟩
abbrev S8000x32 : Shape := ⟨2, ![8000, 32]⟩
abbrev S8000x128 : Shape := ⟨2, ![8000, 128]⟩
abbrev S5000x64 : Shape := ⟨2, ![5000, 64]⟩
abbrev S5000x128 : Shape := ⟨2, ![5000, 128]⟩

abbrev nBuf : Space → Nat
  | .hbm => 79
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S50000x32, .f32⟩
  | .hbm, ⟨2, _⟩ => ⟨S50000x1, .f32⟩
  | .hbm, ⟨3, _⟩ => ⟨S2x800000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000x64, .bf16⟩
  | .hbm, ⟨17, _⟩ => ⟨S50000x32, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x32, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x32, .bf16⟩
  | .hbm, ⟨54, _⟩ => ⟨S64x128, .f32⟩
  | .hbm, ⟨55, _⟩ => ⟨S64x128, .bf16⟩
  | .hbm, ⟨56, _⟩ => ⟨S64x128, .f32⟩
  | .hbm, ⟨57, _⟩ => ⟨S64x128, .bf16⟩
  | .hbm, ⟨58, _⟩ => ⟨S32x128, .f32⟩
  | .hbm, ⟨59, _⟩ => ⟨S32x128, .bf16⟩
  | .hbm, ⟨60, _⟩ => ⟨S32x128, .f32⟩
  | .hbm, ⟨61, _⟩ => ⟨S32x128, .bf16⟩
  | .hbm, ⟨62, _⟩ => ⟨S1x128, .f32⟩
  | .hbm, ⟨63, _⟩ => ⟨S128x64, .bf16⟩
  | .hbm, ⟨64, _⟩ => ⟨S1x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x64, .bf16⟩
  | .hbm, ⟨71, _⟩ => ⟨S64x128, .f32⟩
  | .hbm, ⟨72, _⟩ => ⟨S64x128, .bf16⟩
  | .hbm, ⟨73, _⟩ => ⟨S64x128, .f32⟩
  | .hbm, ⟨74, _⟩ => ⟨S64x128, .bf16⟩
  | .hbm, ⟨75, _⟩ => ⟨S1x128, .f32⟩
  | .hbm, ⟨76, _⟩ => ⟨S128x64, .bf16⟩
  | .hbm, ⟨77, _⟩ => ⟨S1x64, .f32⟩
  | .hbm, ⟨78, _⟩ => ⟨S50000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x32, .bf16⟩
  | .local _ .vmem, ⟨5, _⟩ => ⟨S8000x32, .bf16⟩
  | .local _ .vmem, ⟨6, _⟩ => ⟨S8000x32, .bf16⟩
  | .local _ .vmem, ⟨7, _⟩ => ⟨S8000x32, .bf16⟩
  | .local _ .vmem, ⟨8, _⟩ => ⟨S64x128, .bf16⟩
  | .local _ .vmem, ⟨9, _⟩ => ⟨S64x128, .bf16⟩
  | .local _ .vmem, ⟨10, _⟩ => ⟨S32x128, .bf16⟩
  | .local _ .vmem, ⟨11, _⟩ => ⟨S32x128, .bf16⟩
  | .local _ .vmem, ⟨12, _⟩ => ⟨S1x128, .f32⟩
  | .local _ .vmem, ⟨13, _⟩ => ⟨S128x64, .bf16⟩
  | .local _ .vmem, ⟨14, _⟩ => ⟨S1x64, .f32⟩
  | .local _ .vmem, ⟨15, _⟩ => ⟨S8000x64, .f32⟩
  | .local _ .vmem, ⟨16, _⟩ => ⟨S8000x64, .f32⟩
  | .local _ .vmem, ⟨17, _⟩ => ⟨S5000x64, .bf16⟩
  | .local _ .vmem, ⟨18, _⟩ => ⟨S5000x64, .bf16⟩
  | .local _ .vmem, ⟨19, _⟩ => ⟨S5000x64, .bf16⟩
  | .local _ .vmem, ⟨20, _⟩ => ⟨S5000x64, .bf16⟩
  | .local _ .vmem, ⟨21, _⟩ => ⟨S64x128, .bf16⟩
  | .local _ .vmem, ⟨22, _⟩ => ⟨S64x128, .bf16⟩
  | .local _ .vmem, ⟨23, _⟩ => ⟨S1x128, .f32⟩
  | .local _ .vmem, ⟨24, _⟩ => ⟨S128x64, .bf16⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S192x128_S64x128_0_0 : S192x128.Slices ![0, 0] S64x128
  slices_S192x128_S64x128_64_0 : S192x128.Slices ![64, 0] S64x128
  slices_S192x128_S32x128_128_0 : S192x128.Slices ![128, 0] S32x128
  slices_S192x128_S32x128_160_0 : S192x128.Slices ![160, 0] S32x128
  shapeCasts_S128_S1x128 : S128.ShapeCasts S1x128
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  gather_S50000x32_S800000x1_S800000x32_1_0_n_n_0_1_132_wf : GatherDims.WF S50000x32 S800000x1 S800000x32 [1] [0] [] [0] [] 1 ![1, 32]
  dot_S8000x64_S64x128_S8000x128_1_0_0_1_n_n_wf : DotDims.WF S8000x64 S64x128 S8000x128 [1] [0] [0] [1] [] []
  dot_S8000x32_S32x128_S8000x128_1_0_0_1_n_n_wf : DotDims.WF S8000x32 S32x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S800000x32.size a
  hwx0_2 : ∀ i : grid0.Coords, EltTy.bits .bf16 = 32 ∨ (Rect.block (s := S800000x32) S8000x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S800000x32.size a
  hwx0_3 : ∀ i : grid0.Coords, EltTy.bits .bf16 = 32 ∨ (Rect.block (s := S800000x32) S8000x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .bf16 = 32 ∨ (Rect.block (s := S32x128) S32x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .bf16 = 32 ∨ (Rect.block (s := S32x128) S32x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x64.size a ≤ S800000x64.size a
  hwx0_11 : ∀ i : grid0.Coords, EltTy.bits .f32 = 32 ∨ (Rect.block (s := S800000x64) S8000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .bf16 = 32 ∨ (Rect.block (s := S50000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .bf16 = 32 ∨ (Rect.block (s := S50000x64) S5000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v12) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S8000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S8000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x32 : Shape := ⟨2, ![50000, 32]⟩
abbrev S50000x1 : Shape := ⟨2, ![50000, 1]⟩
abbrev S2x800000 : Shape := ⟨2, ![2, 800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x32 : Shape := ⟨2, ![800000, 32]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x32, .f32⟩
  | .hbm, ⟨2, _⟩ => ⟨S50000x1, .f32⟩
  | .hbm, ⟨3, _⟩ => ⟨S2x800000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x32, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x32, .f32⟩
  | .hbm, ⟨52, _⟩ => ⟨S800000x192, .f32⟩
  | .hbm, ⟨53, _⟩ => ⟨S800000x128, .f32⟩
  | .hbm, ⟨54, _⟩ => ⟨S1x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x64, .f32⟩
  | .hbm, ⟨61, _⟩ => ⟨S1x64, .f32⟩
  | .hbm, ⟨62, _⟩ => ⟨S800000x64, .f32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x32_S800000x192_d1 : Shape.Concatenates [S800000x64, S800000x64, S800000x32, S800000x32] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  gather_S50000x32_S800000x1_S800000x32_1_0_n_n_0_1_132_wf : GatherDims.WF S50000x32 S800000x1 S800000x32 [1] [0] [] [0] [] 1 ![1, 32]
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics of one round of edge-to-node message passing, stated once over arrays of extended reals and
  free of either program.

  For every edge e a message is a two-layer perceptron of four feature rows (the target's and the source's
  node features, 64 wide each, and their identifiers, 32 wide each): a hidden row
      hid e h = max (Σ_k cat e k · W₁ k h + b₁ h) 0     (128 hidden units; cat = the four rows laid end to end, 192 wide)
  and the message   msg e c = Σ_h hid e h · W₂ h c + b₂ c.   The messages are then added up per target node (an operation
  both programs carry out identically, so it stays a parameter here), and every node's update is a second such
  perceptron of its own features and its aggregate laid end to end (128 wide).

  One program forms  Σ_k cat e k · W₁ k h  as ONE sum over the 192 (resp. 128) joined columns; the other forms one
  partial sum per piece, against the matching rows of W₁, and adds the partial sums from left to right. The two
  agree because a finite sum in a commutative monoid splits over consecutive ranges of its index — no
  distributivity, no cancellation — and the extended reals are a commutative monoid under addition
  (sum_split4, sum_split2). Nothing here needs the entries to be finite.

  mlp4 / mlp2 are the partial-sum forms over separately held weight pieces, generic in the number of rows, so that
  the same definition speaks of a block of rows and of the whole array (mlp4_congr, mlp2_congr: a row of the
  result depends on the same row of the inputs only). msgG / updG are the same functions of the WHOLE weight
  matrices, and dot_cat4 / dot_cat2 read a sum over the joined columns as the partial sums.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Gnn

/-- A matrix of extended reals with a rows and b columns. -/
abbrev Arr (a b : Nat) : Type := (⟨2, ![a, b]⟩ : Shape).Idx → EReal
/-- A vector of extended reals of length a. -/
abbrev Row (a : Nat) : Type := (⟨1, ![a]⟩ : Shape).Idx → EReal

/-- The f32 zero word read at the extended reals (kept as the word: both programs compare against the same word). -/
abbrev zf : EReal := Ideal.ofBits .f32 0x00000000#32

/-- Position k of a piece that starts at offset o of a longer axis. -/
def up (o : Nat) {a b : Nat} (h : o + a ≤ b) (k : Fin a) : Fin b := ⟨o + k.val, by have := k.isLt; omega⟩

@[simp] theorem up_val (o : Nat) {a b : Nat} (h : o + a ≤ b) (k : Fin a) : (up o h k).val = o + k.val := rfl

/-! ## A sum over laid-end-to-end ranges is the sum of the ranges' sums -/

/-- A sum over a range of a + b consecutive positions is the sum over the first a plus the sum over the last b. -/
theorem sum_up_split {M : Type*} [AddCommMonoid M] {N : Nat} (f : Fin N → M) (o a b : Nat) (h : o + (a + b) ≤ N) :
    ∑ k : Fin (a + b), f (up o h k)
      = (∑ k : Fin a, f (up o (by omega) k)) + ∑ k : Fin b, f (up (o + a) (by omega) k) := by
  rw [Fin.sum_univ_add]
  refine congrArg₂ (· + ·) ?_ ?_ <;>
    refine Finset.sum_congr rfl fun k _ => congrArg f (Fin.ext ?_) <;>
    simp only [Fin.coe_castAdd, Fin.coe_natAdd, up_val] <;> omega

/-- Every position is position k of the range that starts at 0. -/
theorem sum_up_zero {M : Type*} [AddCommMonoid M] {N : Nat} (f : Fin N → M) :
    ∑ k, f k = ∑ k : Fin N, f (up 0 (by omega) k) :=
  Finset.sum_congr rfl fun k _ => congrArg f (Fin.ext (by simp))

/-- 192 = 64 + 64 + 32 + 32. -/
theorem sum_split4 {M : Type*} [AddCommMonoid M] (f : Fin 192 → M) :
    ∑ k, f k = (((∑ k : Fin 64, f (up 0 (by decide) k)) + ∑ k : Fin 64, f (up 64 (by decide) k))
      + ∑ k : Fin 32, f (up 128 (by decide) k)) + ∑ k : Fin 32, f (up 160 (by decide) k) := by
  refine (sum_up_zero f).trans ?_
  refine (sum_up_split f 0 160 32 (by decide)).trans ?_
  refine congrArg₂ (· + ·) ?_ rfl
  refine (sum_up_split f 0 128 32 (by decide)).trans ?_
  refine congrArg₂ (· + ·) ?_ rfl
  exact sum_up_split f 0 64 64 (by decide)

/-- 128 = 64 + 64. -/
theorem sum_split2 {M : Type*} [AddCommMonoid M] (f : Fin 128 → M) :
    ∑ k, f k = (∑ k : Fin 64, f (up 0 (by decide) k)) + ∑ k : Fin 64, f (up 64 (by decide) k) := by
  refine (sum_up_zero f).trans ?_
  exact sum_up_split f 0 64 64 (by decide)

/-! ## The message perceptron, partial sums over four weight pieces -/

/-- Hidden unit h of row r: the four partial products added left to right, the bias, then the positive part. -/
def hid4 {n : Nat} (A B : Arr n 64) (C D : Arr n 32) (Wa Wb : Arr 64 128) (Wc Wd : Arr 32 128) (b1 : Arr 1 128)
    (r : Fin n) (h : Fin 128) : EReal :=
  max (((((∑ k : Fin 64, A (ix2 r k) * Wa (ix2 k h)) + ∑ k : Fin 64, B (ix2 r k) * Wb (ix2 k h))
    + ∑ k : Fin 32, C (ix2 r k) * Wc (ix2 k h)) + ∑ k : Fin 32, D (ix2 r k) * Wd (ix2 k h)) + b1 (ix2 0 h)) zf

/-- The message perceptron over four weight pieces: the hidden row against the second layer, plus its bias. -/
def mlp4 {n : Nat} (A B : Arr n 64) (C D : Arr n 32) (Wa Wb : Arr 64 128) (Wc Wd : Arr 32 128) (b1 : Arr 1 128)
    (W2 : Arr 128 64) (b2 : Arr 1 64) : Arr n 64 :=
  fun j => (∑ h : Fin 128, hid4 A B C D Wa Wb Wc Wd b1 ⟨(j 0).val, idx2_lt0 j⟩ h * W2 (ix2 h ⟨(j 1).val, idx2_lt1 j⟩))
    + b2 (ix2 0 ⟨(j 1).val, idx2_lt1 j⟩)

theorem mlp4_apply {n : Nat} (A B : Arr n 64) (C D : Arr n 32) (Wa Wb : Arr 64 128) (Wc Wd : Arr 32 128) (b1 : Arr 1 128)
    (W2 : Arr 128 64) (b2 : Arr 1 64) (r : Fin n) (c : Fin 64) :
    mlp4 A B C D Wa Wb Wc Wd b1 W2 b2 (ix2 r c)
      = (∑ h : Fin 128, hid4 A B C D Wa Wb Wc Wd b1 r h * W2 (ix2 h c)) + b2 (ix2 0 c) := rfl

/-- A row of the result depends on the same row of the four inputs only: rows that agree give equal hidden units. -/
theorem hid4_congr {n n' : Nat} (A B : Arr n 64) (C D : Arr n 32) (A' B' : Arr n' 64) (C' D' : Arr n' 32)
    (Wa Wb : Arr 64 128) (Wc Wd : Arr 32 128) (b1 : Arr 1 128) (r : Fin n) (r' : Fin n')
    (hA : ∀ k, A (ix2 r k) = A' (ix2 r' k)) (hB : ∀ k, B (ix2 r k) = B' (ix2 r' k))
    (hC : ∀ k, C (ix2 r k) = C' (ix2 r' k)) (hD : ∀ k, D (ix2 r k) = D' (ix2 r' k)) (h : Fin 128) :
    hid4 A B C D Wa Wb Wc Wd b1 r h = hid4 A' B' C' D' Wa Wb Wc Wd b1 r' h := by
  unfold hid4
  simp only [hA, hB, hC, hD]

/-- …and so equal entries of the result. -/
theorem mlp4_congr {n n' : Nat} (A B : Arr n 64) (C D : Arr n 32) (A' B' : Arr n' 64) (C' D' : Arr n' 32)
    (Wa Wb : Arr 64 128) (Wc Wd : Arr 32 128) (b1 : Arr 1 128) (W2 : Arr 128 64) (b2 : Arr 1 64) (r : Fin n) (r' : Fin n')
    (hA : ∀ k, A (ix2 r k) = A' (ix2 r' k)) (hB : ∀ k, B (ix2 r k) = B' (ix2 r' k))
    (hC : ∀ k, C (ix2 r k) = C' (ix2 r' k)) (hD : ∀ k, D (ix2 r k) = D' (ix2 r' k)) (c : Fin 64) :
    mlp4 A B C D Wa Wb Wc Wd b1 W2 b2 (ix2 r c) = mlp4 A' B' C' D' Wa Wb Wc Wd b1 W2 b2 (ix2 r' c) := by
  rw [mlp4_apply, mlp4_apply]
  simp only [hid4_congr A B C D A' B' C' D' Wa Wb Wc Wd b1 r r' hA hB hC hD]

/-! ## The update perceptron, partial sums over two weight pieces -/

/-- Hidden unit h of row r: the two partial products, the bias, then the positive part. -/
def hid2 {n : Nat} (X Y : Arr n 64) (Wa Wb : Arr 64 128) (b1 : Arr 1 128) (r : Fin n) (h : Fin 128) : EReal :=
  max (((∑ k : Fin 64, X (ix2 r k) * Wa (ix2 k h)) + ∑ k : Fin 64, Y (ix2 r k) * Wb (ix2 k h)) + b1 (ix2 0 h)) zf

/-- The update perceptron over two weight pieces. -/
def mlp2 {n : Nat} (X Y : Arr n 64) (Wa Wb : Arr 64 128) (b1 : Arr 1 128) (W2 : Arr 128 64) (b2 : Arr 1 64) : Arr n 64 :=
  fun j => (∑ h : Fin 128, hid2 X Y Wa Wb b1 ⟨(j 0).val, idx2_lt0 j⟩ h * W2 (ix2 h ⟨(j 1).val, idx2_lt1 j⟩))
    + b2 (ix2 0 ⟨(j 1).val, idx2_lt1 j⟩)

theorem mlp2_apply {n : Nat} (X Y : Arr n 64) (Wa Wb : Arr 64 128) (b1 : Arr 1 128) (W2 : Arr 128 64) (b2 : Arr 1 64)
    (r : Fin n) (c : Fin 64) :
    mlp2 X Y Wa Wb b1 W2 b2 (ix2 r c) = (∑ h : Fin 128, hid2 X Y Wa Wb b1 r h * W2 (ix2 h c)) + b2 (ix2 0 c) := rfl

theorem hid2_congr {n n' : Nat} (X Y : Arr n 64) (X' Y' : Arr n' 64) (Wa Wb : Arr 64 128) (b1 : Arr 1 128)
    (r : Fin n) (r' : Fin n') (hX : ∀ k, X (ix2 r k) = X' (ix2 r' k)) (hY : ∀ k, Y (ix2 r k) = Y' (ix2 r' k)) (h : Fin 128) :
    hid2 X Y Wa Wb b1 r h = hid2 X' Y' Wa Wb b1 r' h := by
  unfold hid2
  simp only [hX, hY]

theorem mlp2_congr {n n' : Nat} (X Y : Arr n 64) (X' Y' : Arr n' 64) (Wa Wb : Arr 64 128) (b1 : Arr 1 128)
    (W2 : Arr 128 64) (b2 : Arr 1 64) (r : Fin n) (r' : Fin n')
    (hX : ∀ k, X (ix2 r k) = X' (ix2 r' k)) (hY : ∀ k, Y (ix2 r k) = Y' (ix2 r' k)) (c : Fin 64) :
    mlp2 X Y Wa Wb b1 W2 b2 (ix2 r c) = mlp2 X' Y' Wa Wb b1 W2 b2 (ix2 r' c) := by
  rw [mlp2_apply, mlp2_apply]
  simp only [hid2_congr X Y X' Y' Wa Wb b1 r r' hX hY]

/-! ## A block of rows against the whole array -/

/-- Entry y of the perceptron of one set of arrays is entry i of the perceptron of another when the weights are the
    same, the columns agree, and row (y 0) of each input of the first is row (i 0) of the matching input of the second
    (a block of rows read out of a longer array). -/
theorem mlp4_rows {n n' : Nat} (A B : Arr n 64) (C D : Arr n 32) (A' B' : Arr n' 64) (C' D' : Arr n' 32)
    (Wa Wb Wa' Wb' : Arr 64 128) (Wc Wd Wc' Wd' : Arr 32 128) (b1 b1' : Arr 1 128) (W2 W2' : Arr 128 64) (b2 b2' : Arr 1 64)
    (hWa : Wa' = Wa) (hWb : Wb' = Wb) (hWc : Wc' = Wc) (hWd : Wd' = Wd) (hb1 : b1' = b1) (hW2 : W2' = W2) (hb2 : b2' = b2)
    (y : (⟨2, ![n', 64]⟩ : Shape).Idx) (i : (⟨2, ![n, 64]⟩ : Shape).Idx) (h1 : (i 1).val = (y 1).val)
    (hA : ∀ k : Fin 64, A' (ix2 ⟨(y 0).val, idx2_lt0 y⟩ k) = A (ix2 ⟨(i 0).val, idx2_lt0 i⟩ k))
    (hB : ∀ k : Fin 64, B' (ix2 ⟨(y 0).val, idx2_lt0 y⟩ k) = B (ix2 ⟨(i 0).val, idx2_lt0 i⟩ k))
    (hC : ∀ k : Fin 32, C' (ix2 ⟨(y 0).val, idx2_lt0 y⟩ k) = C (ix2 ⟨(i 0).val, idx2_lt0 i⟩ k))
    (hD : ∀ k : Fin 32, D' (ix2 ⟨(y 0).val, idx2_lt0 y⟩ k) = D (ix2 ⟨(i 0).val, idx2_lt0 i⟩ k)) :
    mlp4 A' B' C' D' Wa' Wb' Wc' Wd' b1' W2' b2' y = mlp4 A B C D Wa Wb Wc Wd b1 W2 b2 i := by
  subst hWa hWb hWc hWd hb1 hW2 hb2
  have hc : (⟨(y 1).val, idx2_lt1 y⟩ : Fin 64) = ⟨(i 1).val, idx2_lt1 i⟩ := Fin.ext h1.symm
  unfold mlp4
  simp only [hc, hid4_congr A' B' C' D' A B C D _ _ _ _ _ _ _ hA hB hC hD]

/-- The same for the two-piece perceptron. -/
theorem mlp2_rows {n n' : Nat} (X Y : Arr n 64) (X' Y' : Arr n' 64)
    (Wa Wb Wa' Wb' : Arr 64 128) (b1 b1' : Arr 1 128) (W2 W2' : Arr 128 64) (b2 b2' : Arr 1 64)
    (hWa : Wa' = Wa) (hWb : Wb' = Wb) (hb1 : b1' = b1) (hW2 : W2' = W2) (hb2 : b2' = b2)
    (y : (⟨2, ![n', 64]⟩ : Shape).Idx) (i : (⟨2, ![n, 64]⟩ : Shape).Idx) (h1 : (i 1).val = (y 1).val)
    (hX : ∀ k : Fin 64, X' (ix2 ⟨(y 0).val, idx2_lt0 y⟩ k) = X (ix2 ⟨(i 0).val, idx2_lt0 i⟩ k))
    (hY : ∀ k : Fin 64, Y' (ix2 ⟨(y 0).val, idx2_lt0 y⟩ k) = Y (ix2 ⟨(i 0).val, idx2_lt0 i⟩ k)) :
    mlp2 X' Y' Wa' Wb' b1' W2' b2' y = mlp2 X Y Wa Wb b1 W2 b2 i := by
  subst hWa hWb hb1 hW2 hb2
  have hc : (⟨(y 1).val, idx2_lt1 y⟩ : Fin 64) = ⟨(i 1).val, idx2_lt1 i⟩ := Fin.ext h1.symm
  unfold mlp2
  simp only [hc, hid2_congr X' Y' X Y _ _ _ _ _ hX hY]

/-! ## The same functions of the whole weight matrices -/

/-- Rows o … o + a − 1 of a matrix. -/
def rowsFrom (o : Nat) {a b w : Nat} (h : o + a ≤ b) (W : Arr b w) : Arr a w :=
  fun j => W (ix2 (up o h ⟨(j 0).val, idx2_lt0 j⟩) ⟨(j 1).val, idx2_lt1 j⟩)

theorem rowsFrom_apply (o : Nat) {a b w : Nat} (h : o + a ≤ b) (W : Arr b w) (k : Fin a) (c : Fin w) :
    rowsFrom o h W (ix2 k c) = W (ix2 (up o h k) c) := rfl

/-- A vector as a one-row matrix. -/
def asRow {a : Nat} (v : Row a) : Arr 1 a := fun j => v (ix1 ⟨(j 1).val, idx2_lt1 j⟩)

theorem asRow_apply {a : Nat} (v : Row a) (z : Fin 1) (c : Fin a) : asRow v (ix2 z c) = v (ix1 c) := rfl

/-- The messages: the perceptron of the four feature arrays against the 192-row first layer. -/
def msgG {n : Nat} (A B : Arr n 64) (C D : Arr n 32) (W1 : Arr 192 128) (b1 : Row 128) (W2 : Arr 128 64) (b2 : Row 64) :
    Arr n 64 :=
  mlp4 A B C D (rowsFrom 0 (by decide) W1) (rowsFrom 64 (by decide) W1) (rowsFrom 128 (by decide) W1)
    (rowsFrom 160 (by decide) W1) (asRow b1) W2 (asRow b2)

/-- The updates: the perceptron of the node features and the aggregates against the 128-row first layer. -/
def updG {n : Nat} (X Y : Arr n 64) (W1 : Arr 128 128) (b1 : Row 128) (W2 : Arr 128 64) (b2 : Row 64) : Arr n 64 :=
  mlp2 X Y (rowsFrom 0 (by decide) W1) (rowsFrom 64 (by decide) W1) (asRow b1) W2 (asRow b2)

/-! ## One sum over the joined columns is the partial sums -/

/-- A row of four pieces laid end to end, against all 192 rows of the weights: the four partial sums. -/
theorem dot_cat4 {n : Nat} (A B : Arr n 64) (C D : Arr n 32) (Cat : Arr n 192) (W : Arr 192 128) (r : Fin n) (h : Fin 128)
    (hA : ∀ k : Fin 64, Cat (ix2 r (up 0 (by decide) k)) = A (ix2 r k))
    (hB : ∀ k : Fin 64, Cat (ix2 r (up 64 (by decide) k)) = B (ix2 r k))
    (hC : ∀ k : Fin 32, Cat (ix2 r (up 128 (by decide) k)) = C (ix2 r k))
    (hD : ∀ k : Fin 32, Cat (ix2 r (up 160 (by decide) k)) = D (ix2 r k)) :
    ∑ k : Fin 192, Cat (ix2 r k) * W (ix2 k h)
      = (((∑ k : Fin 64, A (ix2 r k) * rowsFrom 0 (by decide) W (ix2 k h))
          + ∑ k : Fin 64, B (ix2 r k) * rowsFrom 64 (by decide) W (ix2 k h))
          + ∑ k : Fin 32, C (ix2 r k) * rowsFrom 128 (by decide) W (ix2 k h))
          + ∑ k : Fin 32, D (ix2 r k) * rowsFrom 160 (by decide) W (ix2 k h) := by
  rw [sum_split4 fun k => Cat (ix2 r k) * W (ix2 k h)]
  simp only [hA, hB, hC, hD, rowsFrom_apply]

/-- A row of two pieces laid end to end, against all 128 rows of the weights: the two partial sums. -/
theorem dot_cat2 {n : Nat} (X Y : Arr n 64) (Cat : Arr n 128) (W : Arr 128 128) (r : Fin n) (h : Fin 128)
    (hX : ∀ k : Fin 64, Cat (ix2 r (up 0 (by decide) k)) = X (ix2 r k))
    (hY : ∀ k : Fin 64, Cat (ix2 r (up 64 (by decide) k)) = Y (ix2 r k)) :
    ∑ k : Fin 128, Cat (ix2 r k) * W (ix2 k h)
      = (∑ k : Fin 64, X (ix2 r k) * rowsFrom 0 (by decide) W (ix2 k h))
          + ∑ k : Fin 64, Y (ix2 r k) * rowsFrom 64 (by decide) W (ix2 k h) := by
  rw [sum_split2 fun k => Cat (ix2 r k) * W (ix2 k h)]
  simp only [hX, hY, rowsFrom_apply]

end Cert.Gnn

end
-- ==== Proof.RefValue.lean ====
/-
  The reference program's result, stage by stage, is the specification.

  The reference gathers four feature arrays (rows of the node features and of the identifiers at the target and at the
  source of every edge), lays them end to end into an 800000 × 192 array, multiplies by the whole first-layer weights,
  adds the bias, takes the positive part, multiplies by the second layer and adds its bias: by dot_cat4 that one sum
  over 192 joined columns is the four partial sums, so the messages are msgG of the four gathered arrays. It then adds
  the messages up per target node (aggOf: the scatter-add, kept as the one function it is), lays the node features and the
  aggregates end to end into a 50000 × 128 array and runs the second perceptron the same way: updG. A joined array
  read at a column of its k-th piece is that piece at the column less the widths before it.
-/
import proofs.«151477_j58737972740096_1_alg».proof.Proof.Gen.ReferenceIdeal.Read
import proofs.«151477_j58737972740096_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx Cert.Gnn
open scoped BigOperators

namespace Cert.ReferenceIdeal.Hand

open Cert.ReferenceIdeal Cert.ReferenceIdeal.Read

variable (x0 : (⟨S50000x64, .f32⟩ : BufTy).Contents (Elt Ideal)) (x1 : (⟨S50000x32, .f32⟩ : BufTy).Contents (Elt Ideal))
  (x3 : (⟨S2x800000, .i32⟩ : BufTy).Contents (Elt Ideal)) (x4 : (⟨S192x128, .f32⟩ : BufTy).Contents (Elt Ideal))
  (x5 : (⟨S128, .f32⟩ : BufTy).Contents (Elt Ideal)) (x6 : (⟨S128x64, .f32⟩ : BufTy).Contents (Elt Ideal))
  (x7 : (⟨S64, .f32⟩ : BufTy).Contents (Elt Ideal)) (x8 : (⟨S128x128, .f32⟩ : BufTy).Contents (Elt Ideal))
  (x9 : (⟨S128, .f32⟩ : BufTy).Contents (Elt Ideal)) (x10 : (⟨S128x64, .f32⟩ : BufTy).Contents (Elt Ideal))
  (x11 : (⟨S64, .f32⟩ : BufTy).Contents (Elt Ideal))

/-! ## The four gathered arrays and the sum per target node, by name -/

/-- Node features at every edge's target. -/
abbrev featI : Arr 800000 64 := val_main_v10 (F := Ideal) x0 x3
/-- Node features at every edge's source. -/
abbrev featJ : Arr 800000 64 := val_main_v17 (F := Ideal) x0 x3
/-- Identifiers at every edge's target. -/
abbrev identI : Arr 800000 32 := val_main_v24 (F := Ideal) x1 x3
/-- Identifiers at every edge's source. -/
abbrev identJ : Arr 800000 32 := val_main_v31 (F := Ideal) x1 x3

/-- The per-edge rows U added up per target node, into zeros. -/
def aggOf (U : Arr 800000 64) : Arr 50000 64 :=
  Host.scatterAdd (F := Ideal) (φ := .f32) scatter_S50000x64_S800000x1_S800000x64_1_0_0_1 (val_main_v42 (F := Ideal)) (val_main_v43 (F := Ideal) x3) U

/-- The whole computation as one function of the arguments. -/
def resG : Arr 50000 64 :=
  updG (n := 50000) x0
    (aggOf x3 (msgG (n := 800000) (featI x0 x3) (featJ x0 x3) (identI x1 x3) (identJ x1 x3) x4 x5 x6 x7)) x8 x9 x10 x11

/-! ## The 192-wide joined array at a column of each piece -/

theorem cat_featI (e : Fin 800000) (k : Fin 64) :
    val_main_v32 (F := Ideal) x0 x1 x3 (ix2 e (up 0 (by decide) k)) = featI x0 x3 (ix2 e k) := by
  unfold val_main_v32 featI
  generalize val_main_v10 (F := Ideal) x0 x3 = a
  generalize val_main_v17 (F := Ideal) x0 x3 = b
  generalize val_main_v24 (F := Ideal) x1 x3 = c
  generalize val_main_v31 (F := Ideal) x1 x3 = d
  refine concatenate_apply_piece 1 _ _ _ 0 ?hk S800000x64 a ?hxk ?hr 0 ?hpre (ix2 e k) ?hi ?ha
  case hk => simp
  case hxk => rfl
  case hr => rfl
  case hpre => rfl
  case hi =>
    intro ax hax
    match ax with
    | ⟨0, _⟩ => rfl
    | ⟨1, _⟩ => exact absurd rfl hax
  case ha => show 0 + k.val = 0 + k.val; rfl

theorem cat_featJ (e : Fin 800000) (k : Fin 64) :
    val_main_v32 (F := Ideal) x0 x1 x3 (ix2 e (up 64 (by decide) k)) = featJ x0 x3 (ix2 e k) := by
  unfold val_main_v32 featJ
  generalize val_main_v10 (F := Ideal) x0 x3 = a
  generalize val_main_v17 (F := Ideal) x0 x3 = b
  generalize val_main_v24 (F := Ideal) x1 x3 = c
  generalize val_main_v31 (F := Ideal) x1 x3 = d
  refine concatenate_apply_piece 1 _ _ _ 1 ?hk S800000x64 b ?hxk ?hr 64 ?hpre (ix2 e k) ?hi ?ha
  case hk => simp
  case hxk => rfl
  case hr => rfl
  case hpre => rfl
  case hi =>
    intro ax hax
    match ax with
    | ⟨0, _⟩ => rfl
    | ⟨1, _⟩ => exact absurd rfl hax
  case ha => show 64 + k.val = 64 + k.val; rfl

theorem cat_identI (e : Fin 800000) (k : Fin 32) :
    val_main_v32 (F := Ideal) x0 x1 x3 (ix2 e (up 128 (by decide) k)) = identI x1 x3 (ix2 e k) := by
  unfold val_main_v32 identI
  generalize val_main_v10 (F := Ideal) x0 x3 = a
  generalize val_main_v17 (F := Ideal) x0 x3 = b
  generalize val_main_v24 (F := Ideal) x1 x3 = c
  generalize val_main_v31 (F := Ideal) x1 x3 = d
  refine concatenate_apply_piece 1 _ _ _ 2 ?hk S800000x32 c ?hxk ?hr 128 ?hpre (ix2 e k) ?hi ?ha
  case hk => simp
  case hxk => rfl
  case hr => rfl
  case hpre => rfl
  case hi =>
    intro ax hax
    match ax with
    | ⟨0, _⟩ => rfl
    | ⟨1, _⟩ => exact absurd rfl hax
  case ha => show 128 + k.val = 128 + k.val; rfl

theorem cat_identJ (e : Fin 800000) (k : Fin 32) :
    val_main_v32 (F := Ideal) x0 x1 x3 (ix2 e (up 160 (by decide) k)) = identJ x1 x3 (ix2 e k) := by
  unfold val_main_v32 identJ
  generalize val_main_v10 (F := Ideal) x0 x3 = a
  generalize val_main_v17 (F := Ideal) x0 x3 = b
  generalize val_main_v24 (F := Ideal) x1 x3 = c
  generalize val_main_v31 (F := Ideal) x1 x3 = d
  refine concatenate_apply_piece 1 _ _ _ 3 ?hk S800000x32 d ?hxk ?hr 160 ?hpre (ix2 e k) ?hi ?ha
  case hk => simp
  case hxk => rfl
  case hr => rfl
  case hpre => rfl
  case hi =>
    intro ax hax
    match ax with
    | ⟨0, _⟩ => rfl
    | ⟨1, _⟩ => exact absurd rfl hax
  case ha => show 160 + k.val = 160 + k.val; rfl

/-! ## The messages -/

/-- The reference's hidden row of the message perceptron is the specification's. -/
theorem msg_hidden (e : Fin 800000) (h : Fin 128) :
    val_main_v37 (F := Ideal) x0 x1 x3 x4 x5 (ix2 e h)
      = hid4 (featI x0 x3) (featJ x0 x3) (identI x1 x3) (identJ x1 x3) (rowsFrom 0 (by decide) x4) (rowsFrom 64 (by decide) x4)
          (rowsFrom 128 (by decide) x4) (rowsFrom 160 (by decide) x4) (asRow x5) e h := by
  have il : ∀ k : Fin 192, lidx_main_v33 (ix2 e h) k = ix2 e k := fun k => funext fun a => Fin.ext (by
    match a with | ⟨0, _⟩ => rfl | ⟨1, _⟩ => rfl)
  have ir : ∀ k : Fin 192, ridx_main_v33 (ix2 e h) k = ix2 k h := fun k => funext fun a => Fin.ext (by
    match a with | ⟨0, _⟩ => rfl | ⟨1, _⟩ => rfl)
  have ib : idx_main_v34 (idx_main_v35 (ix2 e h)) = ix1 h := funext fun a => Fin.ext (by
    match a with | ⟨0, _⟩ => rfl)
  rw [val_main_v37_apply, val_main_v36_apply, val_main_v33_apply, val_main_v35_apply, val_main_v34_apply,
    val_main_call0_v0_apply, val_main_call0_cst_apply]
  simp only [il, ir, ib]
  rw [dot_cat4 (featI x0 x3) (featJ x0 x3) (identI x1 x3) (identJ x1 x3) (val_main_v32 (F := Ideal) x0 x1 x3) x4 e h
    (cat_featI x0 x1 x3 e) (cat_featJ x0 x1 x3 e) (cat_identI x0 x1 x3 e) (cat_identJ x0 x1 x3 e)]
  rfl

/-- The reference's messages are the specification's, of the four gathered arrays. -/
theorem msgs_eq :
    val_main_v41 (F := Ideal) x0 x1 x3 x4 x5 x6 x7
      = msgG (n := 800000) (featI x0 x3) (featJ x0 x3) (identI x1 x3) (identJ x1 x3) x4 x5 x6 x7 := by
  funext i
  obtain ⟨e, c, rfl⟩ : ∃ (e : Fin 800000) (c : Fin 64), i = ix2 e c := ⟨i 0, i 1, eq_ix2 i⟩
  have il : ∀ k : Fin 128, lidx_main_v38 (ix2 e c) k = ix2 e k := fun k => funext fun a => Fin.ext (by
    match a with | ⟨0, _⟩ => rfl | ⟨1, _⟩ => rfl)
  have ir : ∀ k : Fin 128, ridx_main_v38 (ix2 e c) k = ix2 k c := fun k => funext fun a => Fin.ext (by
    match a with | ⟨0, _⟩ => rfl | ⟨1, _⟩ => rfl)
  have ib : idx_main_v39 (idx_main_v40 (ix2 e c)) = ix1 c := funext fun a => Fin.ext (by
    match a with | ⟨0, _⟩ => rfl)
  unfold msgG
  rw [mlp4_apply, val_main_v41_apply, val_main_v38_apply, val_main_v40_apply, val_main_v39_apply]
  simp only [il, ir, ib, msg_hidden x0 x1 x3 x4 x5 e, asRow_apply]
  rfl

/-! ## The 128-wide joined array at a column of each piece -/

theorem cat_node (n : Fin 50000) (k : Fin 64) :
    val_main_v45 (F := Ideal) x0 x1 x3 x4 x5 x6 x7 (ix2 n (up 0 (by decide) k)) = x0 (ix2 n k) := by
  unfold val_main_v45
  generalize val_main_v44 (F := Ideal) x0 x1 x3 x4 x5 x6 x7 = g
  refine concatenate_apply_piece 1 _ _ _ 0 ?hk S50000x64 x0 ?hxk ?hr 0 ?hpre (ix2 n k) ?hi ?ha
  case hk => simp
  case hxk => rfl
  case hr => rfl
  case hpre => rfl
  case hi =>
    intro ax hax
    match ax with
    | ⟨0, _⟩ => rfl
    | ⟨1, _⟩ => exact absurd rfl hax
  case ha => show 0 + k.val = 0 + k.val; rfl

theorem cat_agg (n : Fin 50000) (k : Fin 64) :
    val_main_v45 (F := Ideal) x0 x1 x3 x4 x5 x6 x7 (ix2 n (up 64 (by decide) k))
      = val_main_v44 (F := Ideal) x0 x1 x3 x4 x5 x6 x7 (ix2 n k) := by
  unfold val_main_v45
  generalize val_main_v44 (F := Ideal) x0 x1 x3 x4 x5 x6 x7 = g
  refine concatenate_apply_piece 1 _ _ _ 1 ?hk S50000x64 g ?hxk ?hr 64 ?hpre (ix2 n k) ?hi ?ha
  case hk => simp
  case hxk => rfl
  case hr => rfl
  case hpre => rfl
  case hi =>
    intro ax hax
    match ax with
    | ⟨0, _⟩ => rfl
    | ⟨1, _⟩ => exact absurd rfl hax
  case ha => show 64 + k.val = 64 + k.val; rfl

/-! ## The updates -/

/-- The reference's hidden row of the update perceptron is the specification's. -/
theorem upd_hidden (n : Fin 50000) (h : Fin 128) :
    val_main_v50 (F := Ideal) x0 x1 x3 x4 x5 x6 x7 x8 x9 (ix2 n h)
      = hid2 x0 (val_main_v44 (F := Ideal) x0 x1 x3 x4 x5 x6 x7) (rowsFrom 0 (by decide) x8) (rowsFrom 64 (by decide) x8)
          (asRow x9) n h := by
  have il : ∀ k : Fin 128, lidx_main_v46 (ix2 n h) k = ix2 n k := fun k => funext fun a => Fin.ext (by
    match a with | ⟨0, _⟩ => rfl | ⟨1, _⟩ => rfl)
  have ir : ∀ k : Fin 128, ridx_main_v46 (ix2 n h) k = ix2 k h := fun k => funext fun a => Fin.ext (by
    match a with | ⟨0, _⟩ => rfl | ⟨1, _⟩ => rfl)
  have ib : idx_main_v47 (idx_main_v48 (ix2 n h)) = ix1 h := funext fun a => Fin.ext (by
    match a with | ⟨0, _⟩ => rfl)
  rw [val_main_v50_apply, val_main_v49_apply, val_main_v46_apply, val_main_v48_apply, val_main_v47_apply,
    val_main_call1_v0_apply, val_main_call1_cst_apply]
  simp only [il, ir, ib]
  rw [dot_cat2 x0 (val_main_v44 (F := Ideal) x0 x1 x3 x4 x5 x6 x7) (val_main_v45 (F := Ideal) x0 x1 x3 x4 x5 x6 x7) x8 n h
    (cat_node x0 x1 x3 x4 x5 x6 x7 n) (cat_agg x0 x1 x3 x4 x5 x6 x7 n)]
  rfl

/-- The reference's result is the specification's: the update perceptron of the node features and the summed
    messages. -/
theorem result_eq :
    val_main_v54 (F := Ideal) x0 x1 x3 x4 x5 x6 x7 x8 x9 x10 x11 = resG x0 x1 x3 x4 x5 x6 x7 x8 x9 x10 x11 := by
  have hagg : val_main_v44 (F := Ideal) x0 x1 x3 x4 x5 x6 x7
      = aggOf x3 (msgG (n := 800000) (featI x0 x3) (featJ x0 x3) (identI x1 x3) (identJ x1 x3) x4 x5 x6 x7) := by
    unfold val_main_v44 aggOf
    rw [msgs_eq]
  funext i
  obtain ⟨n, c, rfl⟩ : ∃ (n : Fin 50000) (c : Fin 64), i = ix2 n c := ⟨i 0, i 1, eq_ix2 i⟩
  have il : ∀ k : Fin 128, lidx_main_v51 (ix2 n c) k = ix2 n k := fun k => funext fun a => Fin.ext (by
    match a with | ⟨0, _⟩ => rfl | ⟨1, _⟩ => rfl)
  have ir : ∀ k : Fin 128, ridx_main_v51 (ix2 n c) k = ix2 k c := fun k => funext fun a => Fin.ext (by
    match a with | ⟨0, _⟩ => rfl | ⟨1, _⟩ => rfl)
  have ib : idx_main_v52 (idx_main_v53 (ix2 n c)) = ix1 c := funext fun a => Fin.ext (by
    match a with | ⟨0, _⟩ => rfl)
  unfold resG updG
  rw [mlp2_apply, val_main_v54_apply, val_main_v51_apply, val_main_v53_apply, val_main_v52_apply]
  simp only [il, ir, ib, upd_hidden x0 x1 x3 x4 x5 x6 x7 x8 x9 n, asRow_apply, hagg]
  rfl

end Cert.ReferenceIdeal.Hand

end
-- ==== Proof.Payload.lean ====
/-
  What each kernel body computes on the blocks it loads, read entry by entry over the extended reals.

  The message body takes a block of 8000 edges: four feature blocks (two of 64 columns, two of 32), the four row
  ranges of the first-layer weights as four separate matrices, the first bias as a one-row matrix, the second-layer
  weights and bias. It forms the four products into zero accumulators, adds them left to right, adds the bias row to
  every row, takes the positive part, multiplies by the second layer and adds its bias row: entry (r, c) of the stored
  block is mlp4 of the loaded blocks at (r, c). The update body does the same with two products on a block of 5000
  nodes: mlp2. A change of float format is the identity on extended reals, a matrix product into zeros is the plain
  sum over the contracted position, and a one-row matrix broadcast over the rows reads its one row.
-/
import proofs.«151477_j58737972740096_1_alg».proof.Proof.Gen.KernelIdeal.Skeleton
import proofs.«151477_j58737972740096_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.ValueIdx Cert.Gnn
open scoped BigOperators

namespace Cert.KernelIdeal.Hand

open Cert.KernelIdeal Cert.KernelIdeal.Gen

/-! ## A matrix product into zeros at an entry -/

/-- An [n, K] operand against a [K, m] operand, accumulated into zeros, read at (r, c): the sum over the K contracted
    positions of the products, for any dimension record whose operand indices at output (i, ·) and contracted position q
    are (i 0, q) on the left and (q, i 1) on the right. -/
theorem matmul_rows_cols {n K m : Nat} {φ₁ φ₂ : FTy}
    (D : DotDims (⟨2, ![n, K]⟩ : Shape) ⟨2, ![K, m]⟩ ⟨2, ![n, m]⟩)
    (hr : D.contr.rank = 1) (hs : D.contr.size ⟨0, by omega⟩ = K)
    (hl0 : ∀ (i : (⟨2, ![n, m]⟩ : Shape).Idx) (q : D.contr.Idx), (D.lhsIdx i q 0).val = (i 0).val)
    (hl1 : ∀ (i : (⟨2, ![n, m]⟩ : Shape).Idx) (q : D.contr.Idx), (D.lhsIdx i q 1).val = (q ⟨0, by omega⟩).val)
    (hr0 : ∀ (i : (⟨2, ![n, m]⟩ : Shape).Idx) (q : D.contr.Idx), (D.rhsIdx i q 0).val = (q ⟨0, by omega⟩).val)
    (hr1 : ∀ (i : (⟨2, ![n, m]⟩ : Shape).Idx) (q : D.contr.Idx), (D.rhsIdx i q 1).val = (i 1).val)
    (l : FVec Ideal ⟨2, ![n, K]⟩ φ₁) (w : FVec Ideal ⟨2, ![K, m]⟩ φ₂) (r : Fin n) (c : Fin m) :
    FloatOps.matmul D none l w (constant (F := Ideal) ⟨2, ![n, m]⟩ .f32 0x00000000#32) (ix2 r c)
      = ∑ k : Fin K, l (ix2 r k) * w (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-! ## The five products of the two bodies -/

theorem dot_S8000x64_S64x128_S8000x128_1_0_0_1_n_n_l0 (i) (q : dot_S8000x64_S64x128_S8000x128_1_0_0_1_n_n.contr.Idx) : (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem dot_S8000x64_S64x128_S8000x128_1_0_0_1_n_n_r1 (i) (q : dot_S8000x64_S64x128_S8000x128_1_0_0_1_n_n.contr.Idx) : (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

theorem dot_S8000x32_S32x128_S8000x128_1_0_0_1_n_n_l0 (i) (q : dot_S8000x32_S32x128_S8000x128_1_0_0_1_n_n.contr.Idx) : (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem dot_S8000x32_S32x128_S8000x128_1_0_0_1_n_n_r1 (i) (q : dot_S8000x32_S32x128_S8000x128_1_0_0_1_n_n.contr.Idx) : (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl

theorem dot_S8000x128_S128x64_S8000x64_1_0_0_1_n_n_l0 (i) (q : dot_S8000x128_S128x64_S8000x64_1_0_0_1_n_n.contr.Idx) : (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem dot_S8000x128_S128x64_S8000x64_1_0_0_1_n_n_r1 (i) (q : dot_S8000x128_S128x64_S8000x64_1_0_0_1_n_n.contr.Idx) : (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

theorem dot_S5000x64_S64x128_S5000x128_1_0_0_1_n_n_l0 (i) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dot_S5000x64_S64x128_S5000x128_1_0_0_1_n_n_r1 (i) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem dot_S5000x128_S128x64_S5000x64_1_0_0_1_n_n_l0 (i) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot_S5000x128_S128x64_S5000x64_1_0_0_1_n_n_r1 (i) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [8000, 64] block against a [64, 128] weight piece, accumulated into zeros, read at (r, c). -/
theorem mm_feat64 (l : FVec Ideal S8000x64 .bf16) (w : FVec Ideal S64x128 .bf16) (r : Fin 8000) (c : Fin 128) :
    matmul dot_S8000x64_S64x128_S8000x128_1_0_0_1_n_n none l w (constant S8000x128 .f32 0x00000000#32) (ix2 r c) = ∑ k : Fin 64, l (ix2 r k) * w (ix2 k c) :=
  matmul_rows_cols dot_S8000x64_S64x128_S8000x128_1_0_0_1_n_n rfl rfl dot_S8000x64_S64x128_S8000x128_1_0_0_1_n_n_l0 (fun i q => dot_S8000x64_S64x128_S8000x128_1_0_0_1_n_n.lhsIdx_val_of_single rfl i q)
    (fun i q => dot_S8000x64_S64x128_S8000x128_1_0_0_1_n_n.rhsIdx_val_of_single rfl i q) dot_S8000x64_S64x128_S8000x128_1_0_0_1_n_n_r1 l w r c

/-- A [8000, 32] block against a [32, 128] weight piece, accumulated into zeros, read at (r, c). -/
theorem mm_feat32 (l : FVec Ideal S8000x32 .bf16) (w : FVec Ideal S32x128 .bf16) (r : Fin 8000) (c : Fin 128) :
    matmul dot_S8000x32_S32x128_S8000x128_1_0_0_1_n_n none l w (constant S8000x128 .f32 0x00000000#32) (ix2 r c) = ∑ k : Fin 32, l (ix2 r k) * w (ix2 k c) :=
  matmul_rows_cols dot_S8000x32_S32x128_S8000x128_1_0_0_1_n_n rfl rfl dot_S8000x32_S32x128_S8000x128_1_0_0_1_n_n_l0 (fun i q => dot_S8000x32_S32x128_S8000x128_1_0_0_1_n_n.lhsIdx_val_of_single rfl i q)
    (fun i q => dot_S8000x32_S32x128_S8000x128_1_0_0_1_n_n.rhsIdx_val_of_single rfl i q) dot_S8000x32_S32x128_S8000x128_1_0_0_1_n_n_r1 l w r c

/-- A [8000, 128] block against a [128, 64] weight piece, accumulated into zeros, read at (r, c). -/
theorem mm_out (l : FVec Ideal S8000x128 .bf16) (w : FVec Ideal S128x64 .bf16) (r : Fin 8000) (c : Fin 64) :
    matmul dot_S8000x128_S128x64_S8000x64_1_0_0_1_n_n none l w (constant S8000x64 .f32 0x00000000#32) (ix2 r c) = ∑ k : Fin 128, l (ix2 r k) * w (ix2 k c) :=
  matmul_rows_cols dot_S8000x128_S128x64_S8000x64_1_0_0_1_n_n rfl rfl dot_S8000x128_S128x64_S8000x64_1_0_0_1_n_n_l0 (fun i q => dot_S8000x128_S128x64_S8000x64_1_0_0_1_n_n.lhsIdx_val_of_single rfl i q)
    (fun i q => dot_S8000x128_S128x64_S8000x64_1_0_0_1_n_n.rhsIdx_val_of_single rfl i q) dot_S8000x128_S128x64_S8000x64_1_0_0_1_n_n_r1 l w r c

/-- A [5000, 64] block against a [64, 128] weight piece, accumulated into zeros, read at (r, c). -/
theorem mm_node64 (l : FVec Ideal S5000x64 .bf16) (w : FVec Ideal S64x128 .bf16) (r : Fin 5000) (c : Fin 128) :
    matmul dot_S5000x64_S64x128_S5000x128_1_0_0_1_n_n none l w (constant S5000x128 .f32 0x00000000#32) (ix2 r c) = ∑ k : Fin 64, l (ix2 r k) * w (ix2 k c) :=
  matmul_rows_cols dot_S5000x64_S64x128_S5000x128_1_0_0_1_n_n rfl rfl dot_S5000x64_S64x128_S5000x128_1_0_0_1_n_n_l0 (fun i q => dot_S5000x64_S64x128_S5000x128_1_0_0_1_n_n.lhsIdx_val_of_single rfl i q)
    (fun i q => dot_S5000x64_S64x128_S5000x128_1_0_0_1_n_n.rhsIdx_val_of_single rfl i q) dot_S5000x64_S64x128_S5000x128_1_0_0_1_n_n_r1 l w r c

/-- A [5000, 128] block against a [128, 64] weight piece, accumulated into zeros, read at (r, c). -/
theorem mm_nodeout (l : FVec Ideal S5000x128 .bf16) (w : FVec Ideal S128x64 .bf16) (r : Fin 5000) (c : Fin 64) :
    matmul dot_S5000x128_S128x64_S5000x64_1_0_0_1_n_n none l w (constant S5000x64 .f32 0x00000000#32) (ix2 r c) = ∑ k : Fin 128, l (ix2 r k) * w (ix2 k c) :=
  matmul_rows_cols dot_S5000x128_S128x64_S5000x64_1_0_0_1_n_n rfl rfl dot_S5000x128_S128x64_S5000x64_1_0_0_1_n_n_l0 (fun i q => dot_S5000x128_S128x64_S5000x64_1_0_0_1_n_n.lhsIdx_val_of_single rfl i q)
    (fun i q => dot_S5000x128_S128x64_S5000x64_1_0_0_1_n_n.rhsIdx_val_of_single rfl i q) dot_S5000x128_S128x64_S5000x64_1_0_0_1_n_n_r1 l w r c

/-! ## The bodies' stored values -/

/-- The message body's stored block is the four-piece perceptron of the blocks it loads. -/
theorem msg_payload (v0 v5 : Vec Ideal S8000x64 .bf16) (v2 v7 : Vec Ideal S64x128 .bf16) (v11 v17 : Vec Ideal S8000x32 .bf16)
    (v13 v19 : Vec Ideal S32x128 .bf16) (v23 : Vec Ideal S1x128 .f32) (v30 : Vec Ideal S128x64 .bf16) (v33 : Vec Ideal S1x64 .f32) :
    k0_pay1 (F := Ideal) (k0_pay2 (F := Ideal) v0 v2 v5 v7 v11 v13 v17 v19 v23 v30) v33
      = mlp4 (n := 8000) v0 v5 v11 v17 v2 v7 v13 v19 v23 v30 v33 := by
  funext j
  obtain ⟨r, c, rfl⟩ : ∃ (r : Fin 8000) (c : Fin 64), j = ix2 r c := ⟨j 0, j 1, eq_ix2 j⟩
  rw [mlp4_apply]
  unfold k0_pay1 k0_pay2 hid4
  simp only [shapeCast_self, addf_apply, mm_out, truncf_apply, maximumf_apply, mm_feat64, mm_feat32,
    broadcastTo_1b_ab_apply, broadcast_apply]
  rfl

/-- The update body's stored block is the two-piece perceptron of the blocks it loads. -/
theorem upd_payload (v0 v5 : Vec Ideal S5000x64 .bf16) (v2 v7 : Vec Ideal S64x128 .bf16) (v11 : Vec Ideal S1x128 .f32)
    (v18 : Vec Ideal S128x64 .bf16) (v21 : Vec Ideal S1x64 .f32) :
    k1_pay1 (F := Ideal) v0 v2 v5 v7 v11 v18 v21 = mlp2 (n := 5000) v0 v5 v2 v7 v11 v18 v21 := by
  funext j
  obtain ⟨r, c, rfl⟩ : ∃ (r : Fin 5000) (c : Fin 64), j = ix2 r c := ⟨j 0, j 1, eq_ix2 j⟩
  rw [mlp2_apply]
  unfold k1_pay1 hid2
  simp only [shapeCast_self, addf_apply, mm_nodeout, truncf_apply, maximumf_apply, mm_node64,
    broadcastTo_1b_ab_apply, broadcast_apply]
  rfl

end Cert.KernelIdeal.Hand

end
-- ==== Proof.Region0.lean ====
/-
  The message region: 100 grid points, each a block of 8000 edges. Its four feature windows move with the point (block t is rows
  8000 t … 8000 t + 7999 of its array); the weight and bias windows stay on their whole arrays; the output window moves with
  the point and its 100 blocks tile the 800000 rows. So the output array ends holding the four-piece perceptron of the arrays
  the region finds, entry by entry: a row of the perceptron depends on the same row of the features only. Stated for ANY
  contents V of the buffers at the region's entry, so that nothing here looks inside the host operations before it.
-/
import proofs.«151477_j58737972740096_1_alg».proof.Proof.Gen.KernelIdeal.Frame
import proofs.«151477_j58737972740096_1_alg».proof.Proof.Payload
import Idealize.ShloMosaic.Lib.Pipeline.Value

set_option maxRecDepth 16384

noncomputable section

open Idealize.ShloMosaic Idealize.ShloMosaic.TcCoe Idealize.ShloMosaic.ValueIdx Idealize.SL.Sem Cert.Gnn
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-! ## The printed index maps, decided over the grid -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_3 : ∀ t : Fin cfg0.N, win0_3.index t 0 = t.val ∧ win0_3.index t 1 = 0 :=
  (by decide +kernel : ∀ t : Fin grid0.N, win0_3.index t 0 = t.val ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = 0 ∧ win0_6.index t 1 = 0 :=
  (by decide +kernel : ∀ t : Fin grid0.N, win0_6.index t 0 = 0 ∧ win0_6.index t 1 = 0)
theorem idx0_7 : ∀ t : Fin cfg0.N, win0_7.index t 0 = 0 ∧ win0_7.index t 1 = 0 :=
  (by decide +kernel : ∀ t : Fin grid0.N, win0_7.index t 0 = 0 ∧ win0_7.index t 1 = 0)
theorem idx0_8 : ∀ t : Fin cfg0.N, win0_8.index t 0 = 0 ∧ win0_8.index t 1 = 0 :=
  (by decide +kernel : ∀ t : Fin grid0.N, win0_8.index t 0 = 0 ∧ win0_8.index t 1 = 0)
theorem idx0_9 : ∀ t : Fin cfg0.N, win0_9.index t 0 = 0 ∧ win0_9.index t 1 = 0 :=
  (by decide +kernel : ∀ t : Fin grid0.N, win0_9.index t 0 = 0 ∧ win0_9.index t 1 = 0)
theorem idx0_10 : ∀ t : Fin cfg0.N, win0_10.index t 0 = 0 ∧ win0_10.index t 1 = 0 :=
  (by decide +kernel : ∀ t : Fin grid0.N, win0_10.index t 0 = 0 ∧ win0_10.index t 1 = 0)
theorem idx0_11 : ∀ t : Fin cfg0.N, win0_11.index t 0 = t.val ∧ win0_11.index t 1 = 0 :=
  (by decide +kernel : ∀ t : Fin grid0.N, win0_11.index t 0 = t.val ∧ win0_11.index t 1 = 0)

/-! ## The input blocks as rows of their arrays -/

/-- Input window 0's block at point t, entry x, is entry k of its array: row 8000 t + (x 0). -/
theorem blk0_0 (c : Dev nD) (t : Fin cfg0.N) (x : S8000x64.Idx) (k : S800000x64.Idx)
    (hk0 : (k 0).val = 8000 * t.val + (x 0).val) (hk1 : (k 1).val = (x 1).val) :
    (iblk0 V c 0 t : Vec Ideal S8000x64 .bf16) x = (V c main_v12 : S800000x64.Idx → EReal) k := by
  obtain ⟨e0, e1⟩ := idx0_0 t
  unfold iblk0
  rw [View.read_apply]
  show (V c main_v12 : S800000x64.Idx → EReal) _ = _
  refine congrArg (V c main_v12 : S800000x64.Idx → EReal) (funext fun a => Fin.ext ?_)
  match a with
  | ⟨0, _⟩ => show win0_0.index t 0 * 8000 + 1 * (x 0).val = (k 0).val; rw [e0, hk0]; omega
  | ⟨1, _⟩ => show win0_0.index t 1 * 64 + 1 * (x 1).val = (k 1).val; rw [e1, hk1]; omega

/-- Input window 1's block at point t, entry x, is entry k of its array: row 8000 t + (x 0). -/
theorem blk0_1 (c : Dev nD) (t : Fin cfg0.N) (x : S8000x64.Idx) (k : S800000x64.Idx)
    (hk0 : (k 0).val = 8000 * t.val + (x 0).val) (hk1 : (k 1).val = (x 1).val) :
    (iblk0 V c 1 t : Vec Ideal S8000x64 .bf16) x = (V c main_v19 : S800000x64.Idx → EReal) k := by
  obtain ⟨e0, e1⟩ := idx0_1 t
  unfold iblk0
  rw [View.read_apply]
  show (V c main_v19 : S800000x64.Idx → EReal) _ = _
  refine congrArg (V c main_v19 : S800000x64.Idx → EReal) (funext fun a => Fin.ext ?_)
  match a with
  | ⟨0, _⟩ => show win0_1.index t 0 * 8000 + 1 * (x 0).val = (k 0).val; rw [e0, hk0]; omega
  | ⟨1, _⟩ => show win0_1.index t 1 * 64 + 1 * (x 1).val = (k 1).val; rw [e1, hk1]; omega

/-- Input window 2's block at point t, entry x, is entry k of its array: row 8000 t + (x 0). -/
theorem blk0_2 (c : Dev nD) (t : Fin cfg0.N) (x : S8000x32.Idx) (k : S800000x32.Idx)
    (hk0 : (k 0).val = 8000 * t.val + (x 0).val) (hk1 : (k 1).val = (x 1).val) :
    (iblk0 V c 2 t : Vec Ideal S8000x32 .bf16) x = (V c main_v26 : S800000x32.Idx → EReal) k := by
  obtain ⟨e0, e1⟩ := idx0_2 t
  unfold iblk0
  rw [View.read_apply]
  show (V c main_v26 : S800000x32.Idx → EReal) _ = _
  refine congrArg (V c main_v26 : S800000x32.Idx → EReal) (funext fun a => Fin.ext ?_)
  match a with
  | ⟨0, _⟩ => show win0_2.index t 0 * 8000 + 1 * (x 0).val = (k 0).val; rw [e0, hk0]; omega
  | ⟨1, _⟩ => show win0_2.index t 1 * 32 + 1 * (x 1).val = (k 1).val; rw [e1, hk1]; omega

/-- Input window 3's block at point t, entry x, is entry k of its array: row 8000 t + (x 0). -/
theorem blk0_3 (c : Dev nD) (t : Fin cfg0.N) (x : S8000x32.Idx) (k : S800000x32.Idx)
    (hk0 : (k 0).val = 8000 * t.val + (x 0).val) (hk1 : (k 1).val = (x 1).val) :
    (iblk0 V c 3 t : Vec Ideal S8000x32 .bf16) x = (V c main_v33 : S800000x32.Idx → EReal) k := by
  obtain ⟨e0, e1⟩ := idx0_3 t
  unfold iblk0
  rw [View.read_apply]
  show (V c main_v33 : S800000x32.Idx → EReal) _ = _
  refine congrArg (V c main_v33 : S800000x32.Idx → EReal) (funext fun a => Fin.ext ?_)
  match a with
  | ⟨0, _⟩ => show win0_3.index t 0 * 8000 + 1 * (x 0).val = (k 0).val; rw [e0, hk0]; omega
  | ⟨1, _⟩ => show win0_3.index t 1 * 32 + 1 * (x 1).val = (k 1).val; rw [e1, hk1]; omega

/-- Input window 4's block at point t, entry x, is entry k of its array (the block is the whole array). -/
theorem blk0_4 (c : Dev nD) (t : Fin cfg0.N) (x : S64x128.Idx) (k : S64x128.Idx)
    (hk0 : (k 0).val = (x 0).val) (hk1 : (k 1).val = (x 1).val) :
    (iblk0 V c 4 t : Vec Ideal S64x128 .bf16) x = (V c main_v35 : S64x128.Idx → EReal) k := by
  obtain ⟨e0, e1⟩ := idx0_4 t
  unfold iblk0
  rw [View.read_apply]
  show (V c main_v35 : S64x128.Idx → EReal) _ = _
  refine congrArg (V c main_v35 : S64x128.Idx → EReal) (funext fun a => Fin.ext ?_)
  match a with
  | ⟨0, _⟩ => show win0_4.index t 0 * 64 + 1 * (x 0).val = (k 0).val; rw [e0, hk0]; omega
  | ⟨1, _⟩ => show win0_4.index t 1 * 128 + 1 * (x 1).val = (k 1).val; rw [e1, hk1]; omega

/-- Input window 5's block at point t, entry x, is entry k of its array (the block is the whole array). -/
theorem blk0_5 (c : Dev nD) (t : Fin cfg0.N) (x : S64x128.Idx) (k : S64x128.Idx)
    (hk0 : (k 0).val = (x 0).val) (hk1 : (k 1).val = (x 1).val) :
    (iblk0 V c 5 t : Vec Ideal S64x128 .bf16) x = (V c main_v37 : S64x128.Idx → EReal) k := by
  obtain ⟨e0, e1⟩ := idx0_5 t
  unfold iblk0
  rw [View.read_apply]
  show (V c main_v37 : S64x128.Idx → EReal) _ = _
  refine congrArg (V c main_v37 : S64x128.Idx → EReal) (funext fun a => Fin.ext ?_)
  match a with
  | ⟨0, _⟩ => show win0_5.index t 0 * 64 + 1 * (x 0).val = (k 0).val; rw [e0, hk0]; omega
  | ⟨1, _⟩ => show win0_5.index t 1 * 128 + 1 * (x 1).val = (k 1).val; rw [e1, hk1]; omega

/-- Input window 6's block at point t, entry x, is entry k of its array (the block is the whole array). -/
theorem blk0_6 (c : Dev nD) (t : Fin cfg0.N) (x : S32x128.Idx) (k : S32x128.Idx)
    (hk0 : (k 0).val = (x 0).val) (hk1 : (k 1).val = (x 1).val) :
    (iblk0 V c 6 t : Vec Ideal S32x128 .bf16) x = (V c main_v39 : S32x128.Idx → EReal) k := by
  obtain ⟨e0, e1⟩ := idx0_6 t
  unfold iblk0
  rw [View.read_apply]
  show (V c main_v39 : S32x128.Idx → EReal) _ = _
  refine congrArg (V c main_v39 : S32x128.Idx → EReal) (funext fun a => Fin.ext ?_)
  match a with
  | ⟨0, _⟩ => show win0_6.index t 0 * 32 + 1 * (x 0).val = (k 0).val; rw [e0, hk0]; omega
  | ⟨1, _⟩ => show win0_6.index t 1 * 128 + 1 * (x 1).val = (k 1).val; rw [e1, hk1]; omega

/-- Input window 7's block at point t, entry x, is entry k of its array (the block is the whole array). -/
theorem blk0_7 (c : Dev nD) (t : Fin cfg0.N) (x : S32x128.Idx) (k : S32x128.Idx)
    (hk0 : (k 0).val = (x 0).val) (hk1 : (k 1).val = (x 1).val) :
    (iblk0 V c 7 t : Vec Ideal S32x128 .bf16) x = (V c main_v41 : S32x128.Idx → EReal) k := by
  obtain ⟨e0, e1⟩ := idx0_7 t
  unfold iblk0
  rw [View.read_apply]
  show (V c main_v41 : S32x128.Idx → EReal) _ = _
  refine congrArg (V c main_v41 : S32x128.Idx → EReal) (funext fun a => Fin.ext ?_)
  match a with
  | ⟨0, _⟩ => show win0_7.index t 0 * 32 + 1 * (x 0).val = (k 0).val; rw [e0, hk0]; omega
  | ⟨1, _⟩ => show win0_7.index t 1 * 128 + 1 * (x 1).val = (k 1).val; rw [e1, hk1]; omega

/-- Input window 8's block at point t, entry x, is entry k of its array (the block is the whole array). -/
theorem blk0_8 (c : Dev nD) (t : Fin cfg0.N) (x : S1x128.Idx) (k : S1x128.Idx)
    (hk0 : (k 0).val = (x 0).val) (hk1 : (k 1).val = (x 1).val) :
    (iblk0 V c 8 t : Vec Ideal S1x128 .f32) x = (V c main_v42 : S1x128.Idx → EReal) k := by
  obtain ⟨e0, e1⟩ := idx0_8 t
  unfold iblk0
  rw [View.read_apply]
  show (V c main_v42 : S1x128.Idx → EReal) _ = _
  refine congrArg (V c main_v42 : S1x128.Idx → EReal) (funext fun a => Fin.ext ?_)
  match a with
  | ⟨0, _⟩ => show win0_8.index t 0 * 1 + 1 * (x 0).val = (k 0).val; rw [e0, hk0]; omega
  | ⟨1, _⟩ => show win0_8.index t 1 * 128 + 1 * (x 1).val = (k 1).val; rw [e1, hk1]; omega

/-- Input window 9's block at point t, entry x, is entry k of its array (the block is the whole array). -/
theorem blk0_9 (c : Dev nD) (t : Fin cfg0.N) (x : S128x64.Idx) (k : S128x64.Idx)
    (hk0 : (k 0).val = (x 0).val) (hk1 : (k 1).val = (x 1).val) :
    (iblk0 V c 9 t : Vec Ideal S128x64 .bf16) x = (V c main_v43 : S128x64.Idx → EReal) k := by
  obtain ⟨e0, e1⟩ := idx0_9 t
  unfold iblk0
  rw [View.read_apply]
  show (V c main_v43 : S128x64.Idx → EReal) _ = _
  refine congrArg (V c main_v43 : S128x64.Idx → EReal) (funext fun a => Fin.ext ?_)
  match a with
  | ⟨0, _⟩ => show win0_9.index t 0 * 128 + 1 * (x 0).val = (k 0).val; rw [e0, hk0]; omega
  | ⟨1, _⟩ => show win0_9.index t 1 * 64 + 1 * (x 1).val = (k 1).val; rw [e1, hk1]; omega

/-- Input window 10's block at point t, entry x, is entry k of its array (the block is the whole array). -/
theorem blk0_10 (c : Dev nD) (t : Fin cfg0.N) (x : S1x64.Idx) (k : S1x64.Idx)
    (hk0 : (k 0).val = (x 0).val) (hk1 : (k 1).val = (x 1).val) :
    (iblk0 V c 10 t : Vec Ideal S1x64 .f32) x = (V c main_v44 : S1x64.Idx → EReal) k := by
  obtain ⟨e0, e1⟩ := idx0_10 t
  unfold iblk0
  rw [View.read_apply]
  show (V c main_v44 : S1x64.Idx → EReal) _ = _
  refine congrArg (V c main_v44 : S1x64.Idx → EReal) (funext fun a => Fin.ext ?_)
  match a with
  | ⟨0, _⟩ => show win0_10.index t 0 * 1 + 1 * (x 0).val = (k 0).val; rw [e0, hk0]; omega
  | ⟨1, _⟩ => show win0_10.index t 1 * 64 + 1 * (x 1).val = (k 1).val; rw [e1, hk1]; omega

theorem blk0_4_eq (c : Dev nD) (t : Fin cfg0.N) :
    (iblk0 V c 4 t : Vec Ideal S64x128 .bf16) = (V c main_v35 : S64x128.Idx → EReal) :=
  funext fun x => blk0_4 V c t x x rfl rfl
theorem blk0_5_eq (c : Dev nD) (t : Fin cfg0.N) :
    (iblk0 V c 5 t : Vec Ideal S64x128 .bf16) = (V c main_v37 : S64x128.Idx → EReal) :=
  funext fun x => blk0_5 V c t x x rfl rfl
theorem blk0_6_eq (c : Dev nD) (t : Fin cfg0.N) :
    (iblk0 V c 6 t : Vec Ideal S32x128 .bf16) = (V c main_v39 : S32x128.Idx → EReal) :=
  funext fun x => blk0_6 V c t x x rfl rfl
theorem blk0_7_eq (c : Dev nD) (t : Fin cfg0.N) :
    (iblk0 V c 7 t : Vec Ideal S32x128 .bf16) = (V c main_v41 : S32x128.Idx → EReal) :=
  funext fun x => blk0_7 V c t x x rfl rfl
theorem blk0_8_eq (c : Dev nD) (t : Fin cfg0.N) :
    (iblk0 V c 8 t : Vec Ideal S1x128 .f32) = (V c main_v42 : S1x128.Idx → EReal) :=
  funext fun x => blk0_8 V c t x x rfl rfl
theorem blk0_9_eq (c : Dev nD) (t : Fin cfg0.N) :
    (iblk0 V c 9 t : Vec Ideal S128x64 .bf16) = (V c main_v43 : S128x64.Idx → EReal) :=
  funext fun x => blk0_9 V c t x x rfl rfl
theorem blk0_10_eq (c : Dev nD) (t : Fin cfg0.N) :
    (iblk0 V c 10 t : Vec Ideal S1x64 .f32) = (V c main_v44 : S1x64.Idx → EReal) :=
  funext fun x => blk0_10 V c t x x rfl rfl

/-! ## The output array -/

/-- What the region leaves in its output array, from the arrays it finds: the perceptron of the whole arrays. -/
def msgArr (c : Dev nD) : S800000x64.Idx → EReal :=
  mlp4 (n := 800000) (V c main_v12) (V c main_v19) (V c main_v26) (V c main_v33) (V c main_v35) (V c main_v37) (V c main_v39) (V c main_v41) (V c main_v42) (V c main_v43) (V c main_v44)

/-- What point t writes back is block t of that array: the body's stored block is the perceptron of the point's
    blocks, and row r of block t of every input is row 8000 t + r of its array. -/
theorem flushed0 (c : Dev nD) (t : Fin cfg0.N) :
    (dat0 V c).flushed 11 t = ((cfg0.win 11).blk t).view.read (Elt Ideal) (msgArr V c) := by
  show (cfg0.win 11).cut (grid0.coords t) ((dat0 V c).after 11 t) = _
  rw [after0_11]
  unfold out0_11
  rw [View.canon_unit_zero hz0]
  simp only [View.ld_unit_zero (S := S8000x64) hz0, View.ld_unit_zero (S := S8000x32) hz0, View.ld_unit_zero (S := S64x128) hz0, View.ld_unit_zero (S := S32x128) hz0, View.ld_unit_zero (S := S1x128) hz0, View.ld_unit_zero (S := S128x64) hz0, View.ld_unit_zero (S := S1x64) hz0]
  rw [msg_payload]
  obtain ⟨e0, e1⟩ := idx0_11 t
  funext y
  have h0 : ((((cfg0.win 11).blk t).view.emb y) 0).val = 8000 * t.val + (y 0).val := by
    show win0_11.index t 0 * 8000 + 1 * (y 0).val = _; rw [e0]; omega
  have h1 : ((((cfg0.win 11).blk t).view.emb y) 1).val = (y 1).val := by
    show win0_11.index t 1 * 64 + 1 * (y 1).val = _; rw [e1]; omega
  unfold msgArr
  exact mlp4_rows _ _ _ _ _ _ _ _ _ _ _ _ _ _ _ _ _ _ _ _ _ _
    (blk0_4_eq V c t) (blk0_5_eq V c t) (blk0_6_eq V c t) (blk0_7_eq V c t) (blk0_8_eq V c t) (blk0_9_eq V c t) (blk0_10_eq V c t)
    y _ h1
    (fun k => blk0_0 V c t _ _ h0 rfl)
    (fun k => blk0_1 V c t _ _ h0 rfl)
    (fun k => blk0_2 V c t _ _ h0 rfl)
    (fun k => blk0_3 V c t _ _ h0 rfl)

/-- An index of the output array is in point t's block iff each coordinate is in the block's range on its axis. -/
theorem mem_out0 (t : Fin cfg0.N) (i : S800000x64.Idx) :
    i ∈ ((cfg0.win 11).blk t).view.set ↔ ∀ a : Fin 2, win0_11.index t a * S8000x64.size a ≤ (i a).val ∧ (i a).val < win0_11.index t a * S8000x64.size a + S8000x64.size a := by
  show i ∈ ((View.whole main_v45).slice (win0_11.rect t)).set ↔ _
  rw [View.set_slice_whole, Rect.mem_set_unit]
  exact Iff.rfl

/-- Every row of the output array lies in the block of the point its row number divided by 8000 names. -/
theorem cover0 (i : S800000x64.Idx) :
    ∃ t : Fin cfg0.N, (cfg0.win 11).flush t = true ∧ i ∈ ((cfg0.win 11).blk t).view.set := by
  have hN : grid0.N = 100 := N_0
  have hi0 : (i 0).val < 800000 := (i 0).isLt
  have hi1 : (i 1).val < 64 := (i 1).isLt
  have ht : (i 0).val / 8000 < cfg0.N := by show (i 0).val / 8000 < grid0.N; rw [hN]; omega
  obtain ⟨e0, e1⟩ := idx0_11 ⟨(i 0).val / 8000, ht⟩
  refine ⟨⟨(i 0).val / 8000, ht⟩, flush0_11 _, ?_⟩
  rw [mem_out0]
  intro a
  match a with
  | ⟨0, _⟩ =>
    show win0_11.index ⟨(i 0).val / 8000, ht⟩ 0 * 8000 ≤ (i 0).val ∧ (i 0).val < win0_11.index ⟨(i 0).val / 8000, ht⟩ 0 * 8000 + 8000
    rw [e0]; show (i 0).val / 8000 * 8000 ≤ (i 0).val ∧ (i 0).val < (i 0).val / 8000 * 8000 + 8000; omega
  | ⟨1, _⟩ =>
    show win0_11.index ⟨(i 0).val / 8000, ht⟩ 1 * 64 ≤ (i 1).val ∧ (i 1).val < win0_11.index ⟨(i 0).val / 8000, ht⟩ 1 * 64 + 64
    rw [e1]; omega

/-- The output array after the region: the perceptron of the arrays the region found. -/
theorem value0 (c : Dev nD) : (dat0 V c).arrAt 11 cfg0.N = msgArr V c :=
  (dat0 V c).arrAt_eq_of_cover 11 (msgArr V c) (fun t _ => flushed0 V c t) (fun i => cover0 i)

end Cert.KernelIdeal.Hand

end
-- ==== Proof.Region1.lean ====
/-
  The update region: 10 grid points, each a block of 5000 nodes. The node-feature window and the aggregate window move with
  the point (block t is rows 5000 t … 5000 t + 4999); the weight and bias windows stay on their whole arrays; the output's 10
  blocks tile the 50000 rows. So the output array ends holding the two-piece perceptron of the arrays the region finds.
  Stated for ANY contents V of the buffers at the region's entry.
-/
import proofs.«151477_j58737972740096_1_alg».proof.Proof.Gen.KernelIdeal.Frame
import proofs.«151477_j58737972740096_1_alg».proof.Proof.Payload
import Idealize.ShloMosaic.Lib.Pipeline.Value

set_option maxRecDepth 16384

noncomputable section

open Idealize.ShloMosaic Idealize.ShloMosaic.TcCoe Idealize.ShloMosaic.ValueIdx Idealize.SL.Sem Cert.Gnn
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-! ## The printed index maps, decided over the grid -/

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = 0 ∧ win1_6.index t 1 = 0 :=
  (by decide +kernel : ∀ t : Fin grid1.N, win1_6.index t 0 = 0 ∧ win1_6.index t 1 = 0)
theorem idx1_7 : ∀ t : Fin cfg1.N, win1_7.index t 0 = t.val ∧ win1_7.index t 1 = 0 :=
  (by decide +kernel : ∀ t : Fin grid1.N, win1_7.index t 0 = t.val ∧ win1_7.index t 1 = 0)

/-! ## The input blocks as rows of their arrays -/

/-- Input window 0's block at point t, entry x, is entry k of its array: row 5000 t + (x 0). -/
theorem blk1_0 (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .bf16) x = (V c main_v4 : S50000x64.Idx → EReal) k := by
  obtain ⟨e0, e1⟩ := idx1_0 t
  unfold iblk1
  rw [View.read_apply]
  show (V c main_v4 : S50000x64.Idx → EReal) _ = _
  refine congrArg (V c main_v4 : S50000x64.Idx → EReal) (funext fun a => Fin.ext ?_)
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- Input window 1's block at point t, entry x, is entry k of its array: row 5000 t + (x 0). -/
theorem blk1_1 (c : Dev nD) (t : Fin cfg1.N) (x : S5000x64.Idx) (k : S50000x64.Idx)
    (hk0 : (k 0).val = 5000 * t.val + (x 0).val) (hk1 : (k 1).val = (x 1).val) :
    (iblk1 V c 1 t : Vec Ideal S5000x64 .bf16) x = (V c main_v49 : S50000x64.Idx → EReal) k := by
  obtain ⟨e0, e1⟩ := idx1_1 t
  unfold iblk1
  rw [View.read_apply]
  show (V c main_v49 : S50000x64.Idx → EReal) _ = _
  refine congrArg (V c main_v49 : S50000x64.Idx → EReal) (funext fun a => Fin.ext ?_)
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

/-- Input window 2's block at point t, entry x, is entry k of its array (the block is the whole array). -/
theorem blk1_2 (c : Dev nD) (t : Fin cfg1.N) (x : S64x128.Idx) (k : S64x128.Idx)
    (hk0 : (k 0).val = (x 0).val) (hk1 : (k 1).val = (x 1).val) :
    (iblk1 V c 2 t : Vec Ideal S64x128 .bf16) x = (V c main_v51 : S64x128.Idx → EReal) k := by
  obtain ⟨e0, e1⟩ := idx1_2 t
  unfold iblk1
  rw [View.read_apply]
  show (V c main_v51 : S64x128.Idx → EReal) _ = _
  refine congrArg (V c main_v51 : S64x128.Idx → EReal) (funext fun a => Fin.ext ?_)
  match a with
  | ⟨0, _⟩ => show win1_2.index t 0 * 64 + 1 * (x 0).val = (k 0).val; rw [e0, hk0]; omega
  | ⟨1, _⟩ => show win1_2.index t 1 * 128 + 1 * (x 1).val = (k 1).val; rw [e1, hk1]; omega

/-- Input window 3's block at point t, entry x, is entry k of its array (the block is the whole array). -/
theorem blk1_3 (c : Dev nD) (t : Fin cfg1.N) (x : S64x128.Idx) (k : S64x128.Idx)
    (hk0 : (k 0).val = (x 0).val) (hk1 : (k 1).val = (x 1).val) :
    (iblk1 V c 3 t : Vec Ideal S64x128 .bf16) x = (V c main_v53 : S64x128.Idx → EReal) k := by
  obtain ⟨e0, e1⟩ := idx1_3 t
  unfold iblk1
  rw [View.read_apply]
  show (V c main_v53 : S64x128.Idx → EReal) _ = _
  refine congrArg (V c main_v53 : S64x128.Idx → EReal) (funext fun a => Fin.ext ?_)
  match a with
  | ⟨0, _⟩ => show win1_3.index t 0 * 64 + 1 * (x 0).val = (k 0).val; rw [e0, hk0]; omega
  | ⟨1, _⟩ => show win1_3.index t 1 * 128 + 1 * (x 1).val = (k 1).val; rw [e1, hk1]; omega

/-- Input window 4's block at point t, entry x, is entry k of its array (the block is the whole array). -/
theorem blk1_4 (c : Dev nD) (t : Fin cfg1.N) (x : S1x128.Idx) (k : S1x128.Idx)
    (hk0 : (k 0).val = (x 0).val) (hk1 : (k 1).val = (x 1).val) :
    (iblk1 V c 4 t : Vec Ideal S1x128 .f32) x = (V c main_v54 : S1x128.Idx → EReal) k := by
  obtain ⟨e0, e1⟩ := idx1_4 t
  unfold iblk1
  rw [View.read_apply]
  show (V c main_v54 : S1x128.Idx → EReal) _ = _
  refine congrArg (V c main_v54 : S1x128.Idx → EReal) (funext fun a => Fin.ext ?_)
  match a with
  | ⟨0, _⟩ => show win1_4.index t 0 * 1 + 1 * (x 0).val = (k 0).val; rw [e0, hk0]; omega
  | ⟨1, _⟩ => show win1_4.index t 1 * 128 + 1 * (x 1).val = (k 1).val; rw [e1, hk1]; omega

/-- Input window 5's block at point t, entry x, is entry k of its array (the block is the whole array). -/
theorem blk1_5 (c : Dev nD) (t : Fin cfg1.N) (x : S128x64.Idx) (k : S128x64.Idx)
    (hk0 : (k 0).val = (x 0).val) (hk1 : (k 1).val = (x 1).val) :
    (iblk1 V c 5 t : Vec Ideal S128x64 .bf16) x = (V c main_v55 : S128x64.Idx → EReal) k := by
  obtain ⟨e0, e1⟩ := idx1_5 t
  unfold iblk1
  rw [View.read_apply]
  show (V c main_v55 : S128x64.Idx → EReal) _ = _
  refine congrArg (V c main_v55 : S128x64.Idx → EReal) (funext fun a => Fin.ext ?_)
  match a with
  | ⟨0, _⟩ => show win1_5.index t 0 * 128 + 1 * (x 0).val = (k 0).val; rw [e0, hk0]; omega
  | ⟨1, _⟩ => show win1_5.index t 1 * 64 + 1 * (x 1).val = (k 1).val; rw [e1, hk1]; omega

/-- Input window 6's block at point t, entry x, is entry k of its array (the block is the whole array). -/
theorem blk1_6 (c : Dev nD) (t : Fin cfg1.N) (x : S1x64.Idx) (k : S1x64.Idx)
    (hk0 : (k 0).val = (x 0).val) (hk1 : (k 1).val = (x 1).val) :
    (iblk1 V c 6 t : Vec Ideal S1x64 .f32) x = (V c main_v56 : S1x64.Idx → EReal) k := by
  obtain ⟨e0, e1⟩ := idx1_6 t
  unfold iblk1
  rw [View.read_apply]
  show (V c main_v56 : S1x64.Idx → EReal) _ = _
  refine congrArg (V c main_v56 : S1x64.Idx → EReal) (funext fun a => Fin.ext ?_)
  match a with
  | ⟨0, _⟩ => show win1_6.index t 0 * 1 + 1 * (x 0).val = (k 0).val; rw [e0, hk0]; omega
  | ⟨1, _⟩ => show win1_6.index t 1 * 64 + 1 * (x 1).val = (k 1).val; rw [e1, hk1]; omega

theorem blk1_2_eq (c : Dev nD) (t : Fin cfg1.N) :
    (iblk1 V c 2 t : Vec Ideal S64x128 .bf16) = (V c main_v51 : S64x128.Idx → EReal) :=
  funext fun x => blk1_2 V c t x x rfl rfl
theorem blk1_3_eq (c : Dev nD) (t : Fin cfg1.N) :
    (iblk1 V c 3 t : Vec Ideal S64x128 .bf16) = (V c main_v53 : S64x128.Idx → EReal) :=
  funext fun x => blk1_3 V c t x x rfl rfl
theorem blk1_4_eq (c : Dev nD) (t : Fin cfg1.N) :
    (iblk1 V c 4 t : Vec Ideal S1x128 .f32) = (V c main_v54 : S1x128.Idx → EReal) :=
  funext fun x => blk1_4 V c t x x rfl rfl
theorem blk1_5_eq (c : Dev nD) (t : Fin cfg1.N) :
    (iblk1 V c 5 t : Vec Ideal S128x64 .bf16) = (V c main_v55 : S128x64.Idx → EReal) :=
  funext fun x => blk1_5 V c t x x rfl rfl
theorem blk1_6_eq (c : Dev nD) (t : Fin cfg1.N) :
    (iblk1 V c 6 t : Vec Ideal S1x64 .f32) = (V c main_v56 : S1x64.Idx → EReal) :=
  funext fun x => blk1_6 V c t x x rfl rfl

/-! ## The output array -/

/-- What the region leaves in its output array, from the arrays it finds: the perceptron of the whole arrays. -/
def updArr (c : Dev nD) : S50000x64.Idx → EReal :=
  mlp2 (n := 50000) (V c main_v4) (V c main_v49) (V c main_v51) (V c main_v53) (V c main_v54) (V c main_v55) (V c main_v56)

/-- What point t writes back is block t of that array: the body's stored block is the perceptron of the point's
    blocks, and row r of block t of every input is row 5000 t + r of its array. -/
theorem flushed1 (c : Dev nD) (t : Fin cfg1.N) :
    (dat1 V c).flushed 7 t = ((cfg1.win 7).blk t).view.read (Elt Ideal) (updArr V c) := by
  show (cfg1.win 7).cut (grid1.coords t) ((dat1 V c).after 7 t) = _
  rw [after1_7]
  unfold out1_7
  rw [View.canon_unit_zero hz1]
  simp only [View.ld_unit_zero (S := S5000x64) hz1, View.ld_unit_zero (S := S64x128) hz1, View.ld_unit_zero (S := S1x128) hz1, View.ld_unit_zero (S := S128x64) hz1, View.ld_unit_zero (S := S1x64) hz1]
  rw [upd_payload]
  obtain ⟨e0, e1⟩ := idx1_7 t
  funext y
  have h0 : ((((cfg1.win 7).blk t).view.emb y) 0).val = 5000 * t.val + (y 0).val := by
    show win1_7.index t 0 * 5000 + 1 * (y 0).val = _; rw [e0]; omega
  have h1 : ((((cfg1.win 7).blk t).view.emb y) 1).val = (y 1).val := by
    show win1_7.index t 1 * 64 + 1 * (y 1).val = _; rw [e1]; omega
  unfold updArr
  exact mlp2_rows _ _ _ _ _ _ _ _ _ _ _ _ _ _
    (blk1_2_eq V c t) (blk1_3_eq V c t) (blk1_4_eq V c t) (blk1_5_eq V c t) (blk1_6_eq V c t)
    y _ h1
    (fun k => blk1_0 V c t _ _ h0 rfl)
    (fun k => blk1_1 V c t _ _ h0 rfl)

/-- An index of the output array is in point t's block iff each coordinate is in the block's range on its axis. -/
theorem mem_out1 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v57).slice (win1_7.rect t)).set ↔ _
  rw [View.set_slice_whole, Rect.mem_set_unit]
  exact Iff.rfl

/-- Every row of the output array lies in the block of the point its row number divided by 5000 names. -/
theorem cover1 (i : S50000x64.Idx) :
    ∃ t : Fin cfg1.N, (cfg1.win 7).flush t = true ∧ i ∈ ((cfg1.win 7).blk t).view.set := by
  have hN : grid1.N = 10 := N_1
  have hi0 : (i 0).val < 50000 := (i 0).isLt
  have hi1 : (i 1).val < 64 := (i 1).isLt
  have ht : (i 0).val / 5000 < cfg1.N := by show (i 0).val / 5000 < grid1.N; rw [hN]; omega
  obtain ⟨e0, e1⟩ := idx1_7 ⟨(i 0).val / 5000, ht⟩
  refine ⟨⟨(i 0).val / 5000, ht⟩, flush1_7 _, ?_⟩
  rw [mem_out1]
  intro a
  match a with
  | ⟨0, _⟩ =>
    show win1_7.index ⟨(i 0).val / 5000, ht⟩ 0 * 5000 ≤ (i 0).val ∧ (i 0).val < win1_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ 1 * 64 ≤ (i 1).val ∧ (i 1).val < win1_7.index ⟨(i 0).val / 5000, ht⟩ 1 * 64 + 64
    rw [e1]; omega

/-- The output array after the region: the perceptron of the arrays the region found. -/
theorem value1 (c : Dev nD) : (dat1 V c).arrAt 7 cfg1.N = updArr V c :=
  (dat1 V c).arrAt_eq_of_cover 7 (updArr V c) (fun t _ => flushed1 V c t) (fun i => cover1 i)

end Cert.KernelIdeal.Hand

end
-- ==== Proof.Entry0a.lean ====
/-
  What the message region finds in its four feature windows: the reference's own gathered arrays. The host operations
  before the region cut the two index rows out of the edge list, wrap negative indices by the number of nodes, and gather
  rows of the node features and of the identifiers at them — the same operations, in the same order, on the same
  arguments, as the reference's; the kernel program gathers from a copy in another float format, which is the same array of
  extended reals. Read back through the host operations each buffer is, term for term, the reference's stage.
-/
import proofs.«151477_j58737972740096_1_alg».proof.Proof.Gen.KernelIdeal.Frame
import proofs.«151477_j58737972740096_1_alg».proof.Proof.RefValue
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.ShloMosaic.ValueIdx Idealize.SL.Sem Cert.Gnn
open Idealize.ShloMosaic.StableHlo

namespace Cert.KernelIdeal.Hand

open Cert.KernelIdeal Cert.KernelIdeal.Gen

variable (m : (ℓ : Loc nD τ sig) → Buf (Elt Ideal) ℓ) (ρ : Dev nD → PrngReg)

set_option maxHeartbeats 4000000 in
/-- Buffer main_v12 at region 0's entry is the reference's own gathered array (the same gather of the same rows;
    a change of format is the identity). -/
theorem entry_v12 (c : Dev nD) :
    (W1 m ρ c (Proc.devRef .tc main_v12) : S800000x64.Idx → EReal)
      = Cert.ReferenceIdeal.Read.val_main_v10 (F := Ideal) (m ((c : Thread nD τ).loc main_arg0)) (m ((c : Thread nD τ).loc main_arg3)) := by
  show StableHlo.after hostOps0 _ (Proc.devRef .tc main_v12) = _
  after_results_simp <;> rfl
set_option maxHeartbeats 4000000 in
/-- Buffer main_v19 at region 0's entry is the reference's own gathered array (the same gather of the same rows;
    a change of format is the identity). -/
theorem entry_v19 (c : Dev nD) :
    (W1 m ρ c (Proc.devRef .tc main_v19) : S800000x64.Idx → EReal)
      = Cert.ReferenceIdeal.Read.val_main_v17 (F := Ideal) (m ((c : Thread nD τ).loc main_arg0)) (m ((c : Thread nD τ).loc main_arg3)) := by
  show StableHlo.after hostOps0 _ (Proc.devRef .tc main_v19) = _
  after_results_simp <;> rfl
set_option maxHeartbeats 4000000 in
/-- Buffer main_v26 at region 0's entry is the reference's own gathered array (the same gather of the same rows;
    a change of format is the identity). -/
theorem entry_v26 (c : Dev nD) :
    (W1 m ρ c (Proc.devRef .tc main_v26) : S800000x32.Idx → EReal)
      = Cert.ReferenceIdeal.Read.val_main_v24 (F := Ideal) (m ((c : Thread nD τ).loc main_arg1)) (m ((c : Thread nD τ).loc main_arg3)) := by
  show StableHlo.after hostOps0 _ (Proc.devRef .tc main_v26) = _
  after_results_simp <;> rfl
set_option maxHeartbeats 4000000 in
/-- Buffer main_v33 at region 0's entry is the reference's own gathered array (the same gather of the same rows;
    a change of format is the identity). -/
theorem entry_v33 (c : Dev nD) :
    (W1 m ρ c (Proc.devRef .tc main_v33) : S800000x32.Idx → EReal)
      = Cert.ReferenceIdeal.Read.val_main_v31 (F := Ideal) (m ((c : Thread nD τ).loc main_arg1)) (m ((c : Thread nD τ).loc main_arg3)) := by
  show StableHlo.after hostOps0 _ (Proc.devRef .tc main_v33) = _
  after_results_simp <;> rfl

end Cert.KernelIdeal.Hand

end
-- ==== Proof.Entry0b.lean ====
/-
  What the message region finds in its seven weight windows: the four row ranges of the first-layer weights (each a slice
  of the weight argument and a change of format), the first bias as a one-row matrix, the second-layer weights (a change of
  format only) and the second bias as a one-row matrix.
-/
import proofs.«151477_j58737972740096_1_alg».proof.Proof.Gen.KernelIdeal.Frame
import proofs.«151477_j58737972740096_1_alg».proof.Proof.RefValue
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.ShloMosaic.ValueIdx Idealize.SL.Sem Cert.Gnn
open Idealize.ShloMosaic.StableHlo

namespace Cert.KernelIdeal.Hand

open Cert.KernelIdeal Cert.KernelIdeal.Gen

variable (m : (ℓ : Loc nD τ sig) → Buf (Elt Ideal) ℓ) (ρ : Dev nD → PrngReg)

set_option maxHeartbeats 4000000 in
/-- Buffer main_v35 at the region's entry: rows 0 … 63 of argument 4 (a slice, then a change of format). -/
theorem entry_v35 (c : Dev nD) :
    (W1 m ρ c (Proc.devRef .tc main_v35) : S64x128.Idx → EReal) = rowsFrom 0 (by decide) (m ((c : Thread nD τ).loc main_arg4)) := by
  have h : (W1 m ρ c (Proc.devRef .tc main_v35) : S64x128.Idx → EReal)
      = truncf (F := Ideal) (φ := .f32) .bf16 (extractStridedSlice S64x128 ![0, 0] (W0 m ρ c (Proc.devRef .tc main_arg4) : S192x128.Idx → EReal) slices_S192x128_S64x128_0_0) bitsLt_bf16_f32 := by
    show StableHlo.after hostOps0 _ (Proc.devRef .tc main_v35) = _
    after_results_simp <;> rfl
  rw [h]
  funext j
  obtain ⟨k, q, rfl⟩ : ∃ (k : Fin 64) (q : Fin 128), j = ix2 k q := ⟨j 0, j 1, eq_ix2 j⟩
  rw [truncf_apply, rowsFrom_apply]
  exact slice2_axis0_apply 0 _ _ k q (up 0 (by decide) k) rfl
set_option maxHeartbeats 4000000 in
/-- Buffer main_v37 at the region's entry: rows 64 … 127 of argument 4 (a slice, then a change of format). -/
theorem entry_v37 (c : Dev nD) :
    (W1 m ρ c (Proc.devRef .tc main_v37) : S64x128.Idx → EReal) = rowsFrom 64 (by decide) (m ((c : Thread nD τ).loc main_arg4)) := by
  have h : (W1 m ρ c (Proc.devRef .tc main_v37) : S64x128.Idx → EReal)
      = truncf (F := Ideal) (φ := .f32) .bf16 (extractStridedSlice S64x128 ![64, 0] (W0 m ρ c (Proc.devRef .tc main_arg4) : S192x128.Idx → EReal) slices_S192x128_S64x128_64_0) bitsLt_bf16_f32 := by
    show StableHlo.after hostOps0 _ (Proc.devRef .tc main_v37) = _
    after_results_simp <;> rfl
  rw [h]
  funext j
  obtain ⟨k, q, rfl⟩ : ∃ (k : Fin 64) (q : Fin 128), j = ix2 k q := ⟨j 0, j 1, eq_ix2 j⟩
  rw [truncf_apply, rowsFrom_apply]
  exact slice2_axis0_apply 64 _ _ k q (up 64 (by decide) k) rfl
set_option maxHeartbeats 4000000 in
/-- Buffer main_v39 at the region's entry: rows 128 … 159 of argument 4 (a slice, then a change of format). -/
theorem entry_v39 (c : Dev nD) :
    (W1 m ρ c (Proc.devRef .tc main_v39) : S32x128.Idx → EReal) = rowsFrom 128 (by decide) (m ((c : Thread nD τ).loc main_arg4)) := by
  have h : (W1 m ρ c (Proc.devRef .tc main_v39) : S32x128.Idx → EReal)
      = truncf (F := Ideal) (φ := .f32) .bf16 (extractStridedSlice S32x128 ![128, 0] (W0 m ρ c (Proc.devRef .tc main_arg4) : S192x128.Idx → EReal) slices_S192x128_S32x128_128_0) bitsLt_bf16_f32 := by
    show StableHlo.after hostOps0 _ (Proc.devRef .tc main_v39) = _
    after_results_simp <;> rfl
  rw [h]
  funext j
  obtain ⟨k, q, rfl⟩ : ∃ (k : Fin 32) (q : Fin 128), j = ix2 k q := ⟨j 0, j 1, eq_ix2 j⟩
  rw [truncf_apply, rowsFrom_apply]
  exact slice2_axis0_apply 128 _ _ k q (up 128 (by decide) k) rfl
set_option maxHeartbeats 4000000 in
/-- Buffer main_v41 at the region's entry: rows 160 … 191 of argument 4 (a slice, then a change of format). -/
theorem entry_v41 (c : Dev nD) :
    (W1 m ρ c (Proc.devRef .tc main_v41) : S32x128.Idx → EReal) = rowsFrom 160 (by decide) (m ((c : Thread nD τ).loc main_arg4)) := by
  have h : (W1 m ρ c (Proc.devRef .tc main_v41) : S32x128.Idx → EReal)
      = truncf (F := Ideal) (φ := .f32) .bf16 (extractStridedSlice S32x128 ![160, 0] (W0 m ρ c (Proc.devRef .tc main_arg4) : S192x128.Idx → EReal) slices_S192x128_S32x128_160_0) bitsLt_bf16_f32 := by
    show StableHlo.after hostOps0 _ (Proc.devRef .tc main_v41) = _
    after_results_simp <;> rfl
  rw [h]
  funext j
  obtain ⟨k, q, rfl⟩ : ∃ (k : Fin 32) (q : Fin 128), j = ix2 k q := ⟨j 0, j 1, eq_ix2 j⟩
  rw [truncf_apply, rowsFrom_apply]
  exact slice2_axis0_apply 160 _ _ k q (up 160 (by decide) k) rfl
set_option maxHeartbeats 4000000 in
/-- Buffer main_v42 at the region's entry: argument 5 as a one-row matrix. -/
theorem entry_v42 (c : Dev nD) :
    (W1 m ρ c (Proc.devRef .tc main_v42) : S1x128.Idx → EReal) = asRow (m ((c : Thread nD τ).loc main_arg5)) := by
  have h : (W1 m ρ c (Proc.devRef .tc main_v42) : S1x128.Idx → EReal)
      = shapeCast S1x128 (W0 m ρ c (Proc.devRef .tc main_arg5) : S128.Idx → EReal) shapeCasts_S128_S1x128 := by
    show StableHlo.after hostOps0 _ (Proc.devRef .tc main_v42) = _
    after_results_simp <;> rfl
  rw [h]
  funext j
  obtain ⟨z, q, rfl⟩ : ∃ (z : Fin 1) (q : Fin 128), j = ix2 z q := ⟨j 0, j 1, eq_ix2 j⟩
  rw [asRow_apply]
  exact shapeCast_a_1a_apply _ _ z q
set_option maxHeartbeats 4000000 in
/-- Buffer main_v43 at the region's entry: argument 6 (a change of format only). -/
theorem entry_v43 (c : Dev nD) :
    (W1 m ρ c (Proc.devRef .tc main_v43) : S128x64.Idx → EReal) = (m ((c : Thread nD τ).loc main_arg6)) := by
  have h : (W1 m ρ c (Proc.devRef .tc main_v43) : S128x64.Idx → EReal)
      = truncf (F := Ideal) (φ := .f32) .bf16 (W0 m ρ c (Proc.devRef .tc main_arg6) : S128x64.Idx → EReal) bitsLt_bf16_f32 := by
    show StableHlo.after hostOps0 _ (Proc.devRef .tc main_v43) = _
    after_results_simp <;> rfl
  rw [h]
  rfl
set_option maxHeartbeats 4000000 in
/-- Buffer main_v44 at the region's entry: argument 7 as a one-row matrix. -/
theorem entry_v44 (c : Dev nD) :
    (W1 m ρ c (Proc.devRef .tc main_v44) : S1x64.Idx → EReal) = asRow (m ((c : Thread nD τ).loc main_arg7)) := by
  have h : (W1 m ρ c (Proc.devRef .tc main_v44) : S1x64.Idx → EReal)
      = shapeCast S1x64 (W0 m ρ c (Proc.devRef .tc main_arg7) : S64.Idx → EReal) shapeCasts_S64_S1x64 := by
    show StableHlo.after hostOps0 _ (Proc.devRef .tc main_v44) = _
    after_results_simp <;> rfl
  rw [h]
  funext j
  obtain ⟨z, q, rfl⟩ : ∃ (z : Fin 1) (q : Fin 64), j = ix2 z q := ⟨j 0, j 1, eq_ix2 j⟩
  rw [asRow_apply]
  exact shapeCast_a_1a_apply _ _ z q

end Cert.KernelIdeal.Hand

end
-- ==== Proof.Entry0.lean ====
/-
  The messages the first region leaves are the specification's messages of the reference's gathered arrays: its output
  array is the four-piece perceptron of what it finds (Region0), and what it finds are those gathered arrays (Entry0a), the
  four row ranges of the first-layer weights, the biases as one-row matrices and the second layer (Entry0b).
-/
import proofs.«151477_j58737972740096_1_alg».proof.Proof.Gen.KernelIdeal.Frame
import proofs.«151477_j58737972740096_1_alg».proof.Proof.RefValue
import proofs.«151477_j58737972740096_1_alg».proof.Proof.Region0
import proofs.«151477_j58737972740096_1_alg».proof.Proof.Entry0a
import proofs.«151477_j58737972740096_1_alg».proof.Proof.Entry0b
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.ShloMosaic.ValueIdx Idealize.SL.Sem Cert.Gnn
open Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-- The messages the region leaves: the specification's, of the reference's gathered arrays and the weight arguments. -/
theorem msgArr_eq (c : Dev nD) :
    msgArr (V1 m ρ) c
      = msgG (n := 800000) (Cert.ReferenceIdeal.Hand.featI (m ((c : Thread nD τ).loc main_arg0)) (m ((c : Thread nD τ).loc main_arg3))) (Cert.ReferenceIdeal.Hand.featJ (m ((c : Thread nD τ).loc main_arg0)) (m ((c : Thread nD τ).loc main_arg3)))
          (Cert.ReferenceIdeal.Hand.identI (m ((c : Thread nD τ).loc main_arg1)) (m ((c : Thread nD τ).loc main_arg3))) (Cert.ReferenceIdeal.Hand.identJ (m ((c : Thread nD τ).loc main_arg1)) (m ((c : Thread nD τ).loc main_arg3)))
          (m ((c : Thread nD τ).loc main_arg4)) (m ((c : Thread nD τ).loc main_arg5)) (m ((c : Thread nD τ).loc main_arg6)) (m ((c : Thread nD τ).loc main_arg7)) := by
  unfold msgArr msgG
  show mlp4 (n := 800000) (W1 m ρ c (Proc.devRef .tc main_v12)) (W1 m ρ c (Proc.devRef .tc main_v19)) (W1 m ρ c (Proc.devRef .tc main_v26))
      (W1 m ρ c (Proc.devRef .tc main_v33)) (W1 m ρ c (Proc.devRef .tc main_v35)) (W1 m ρ c (Proc.devRef .tc main_v37))
      (W1 m ρ c (Proc.devRef .tc main_v39)) (W1 m ρ c (Proc.devRef .tc main_v41)) (W1 m ρ c (Proc.devRef .tc main_v42))
      (W1 m ρ c (Proc.devRef .tc main_v43)) (W1 m ρ c (Proc.devRef .tc main_v44)) = _
  rw [entry_v12 m ρ c, entry_v19 m ρ c, entry_v26 m ρ c, entry_v33 m ρ c, entry_v35 m ρ c, entry_v37 m ρ c, entry_v39 m ρ c,
    entry_v41 m ρ c, entry_v42 m ρ c, entry_v43 m ρ c, entry_v44 m ρ c]

end Cert.KernelIdeal.Hand

end
-- ==== Proof.Entry1a.lean ====
/-
  What is still where it was when the message region is left. The region writes its own output array only, so every other
  buffer holds what the host operations before the region left in it: the arguments as launched, the node features in the
  matrix unit's format (the argument itself, as extended reals), the edges' target indices (the reference's), and the
  region's output array the messages (Region0).
-/
import proofs.«151477_j58737972740096_1_alg».proof.Proof.Gen.KernelIdeal.Frame
import proofs.«151477_j58737972740096_1_alg».proof.Proof.RefValue
import proofs.«151477_j58737972740096_1_alg».proof.Proof.Region0
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.ShloMosaic.ValueIdx Idealize.SL.Sem Cert.Gnn
open Idealize.ShloMosaic.StableHlo

namespace Cert.KernelIdeal.Hand

open Cert.KernelIdeal Cert.KernelIdeal.Gen

variable (m : (ℓ : Loc nD τ sig) → Buf (Elt Ideal) ℓ) (ρ : Dev nD → PrngReg)

set_option maxHeartbeats 4000000 in
/-- Argument 8 is still as launched when the message region is left: no host operation before it and no window of it
    writes that buffer. -/
theorem w2_arg8 (c : Dev nD) : W2 m ρ c (Proc.devRef .tc main_arg8) = (m ((c : Thread nD τ).loc main_arg8)) :=
  (W2_of_ne m ρ c main_arg8 (by decide)).trans (by
    show StableHlo.after hostOps0 _ (Proc.devRef .tc main_arg8) = _
    after_results_simp <;> rfl)
set_option maxHeartbeats 4000000 in
/-- Argument 9 is still as launched when the message region is left: no host operation before it and no window of it
    writes that buffer. -/
theorem w2_arg9 (c : Dev nD) : W2 m ρ c (Proc.devRef .tc main_arg9) = (m ((c : Thread nD τ).loc main_arg9)) :=
  (W2_of_ne m ρ c main_arg9 (by decide)).trans (by
    show StableHlo.after hostOps0 _ (Proc.devRef .tc main_arg9) = _
    after_results_simp <;> rfl)
set_option maxHeartbeats 4000000 in
/-- Argument 10 is still as launched when the message region is left: no host operation before it and no window of it
    writes that buffer. -/
theorem w2_arg10 (c : Dev nD) : W2 m ρ c (Proc.devRef .tc main_arg10) = (m ((c : Thread nD τ).loc main_arg10)) :=
  (W2_of_ne m ρ c main_arg10 (by decide)).trans (by
    show StableHlo.after hostOps0 _ (Proc.devRef .tc main_arg10) = _
    after_results_simp <;> rfl)
set_option maxHeartbeats 4000000 in
/-- Argument 11 is still as launched when the message region is left: no host operation before it and no window of it
    writes that buffer. -/
theorem w2_arg11 (c : Dev nD) : W2 m ρ c (Proc.devRef .tc main_arg11) = (m ((c : Thread nD τ).loc main_arg11)) :=
  (W2_of_ne m ρ c main_arg11 (by decide)).trans (by
    show StableHlo.after hostOps0 _ (Proc.devRef .tc main_arg11) = _
    after_results_simp <;> rfl)

set_option maxHeartbeats 4000000 in
/-- The node features in the matrix unit's format, made before the first region, are the argument. -/
theorem w2_v4 (c : Dev nD) : (W2 m ρ c (Proc.devRef .tc main_v4) : S50000x64.Idx → EReal) = (m ((c : Thread nD τ).loc main_arg0)) :=
  (W2_of_ne m ρ c main_v4 (by decide)).trans (by
    show StableHlo.after hostOps0 _ (Proc.devRef .tc main_v4) = _
    after_results_simp <;> rfl)

set_option maxHeartbeats 4000000 in
/-- The target indices, made before the first region, are the reference's. -/
theorem w2_v1 (c : Dev nD) :
    W2 m ρ c (Proc.devRef .tc main_v1) = Cert.ReferenceIdeal.Read.val_main_v1 (F := Ideal) (m ((c : Thread nD τ).loc main_arg3)) :=
  (W2_of_ne m ρ c main_v1 (by decide)).trans (by
    show StableHlo.after hostOps0 _ (Proc.devRef .tc main_v1) = _
    after_results_simp <;> rfl)

/-- The message region's output array holds the messages. -/
theorem w2_v45 (c : Dev nD) : (W2 m ρ c (Proc.devRef .tc main_v45) : S800000x64.Idx → EReal) = msgArr (V1 m ρ) c :=
  (W2_arr m ρ c 11).trans (value0 (V1 m ρ) c)

end Cert.KernelIdeal.Hand

end
-- ==== Proof.Entry1.lean ====
/-
  What the update region finds at its entry, and so what it leaves. Between the two regions the host adds the messages up per
  target node — the same sum the reference forms, at the same unwrapped target indices, into the same zeros — and cuts the
  second perceptron's first layer into its two row ranges. So the region's inputs are: the node features, the reference's
  aggregate of the first region's messages, the two row ranges, the biases as one-row matrices, the second layer; and its
  output array, which is @main's result, is the whole computation's specification of the arguments.
-/
import proofs.«151477_j58737972740096_1_alg».proof.Proof.Gen.KernelIdeal.Frame
import proofs.«151477_j58737972740096_1_alg».proof.Proof.RefValue
import proofs.«151477_j58737972740096_1_alg».proof.Proof.Region0
import proofs.«151477_j58737972740096_1_alg».proof.Proof.Region1
import proofs.«151477_j58737972740096_1_alg».proof.Proof.Entry0
import proofs.«151477_j58737972740096_1_alg».proof.Proof.Entry1a
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.ShloMosaic.ValueIdx Idealize.SL.Sem Cert.Gnn
open Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-- Window 0 of the update region: the node features. -/
theorem entry_v4 (c : Dev nD) : (W3 m ρ c (Proc.devRef .tc main_v4) : S50000x64.Idx → EReal) = (m ((c : Thread nD τ).loc main_arg0)) := by
  refine Eq.trans ?_ (w2_v4 m ρ c)
  show StableHlo.after hostOps1 _ (Proc.devRef .tc main_v4) = _
  after_results_simp <;> rfl

/-- A change of float format is the identity on an array of extended reals. -/
theorem truncf_ideal {s : Shape} (X : FVec Ideal s .f32) (h : FTy.bf16.bits < FTy.f32.bits) :
    truncf (F := Ideal) (φ := .f32) .bf16 X h = X := rfl

/-- The scatter's dimension numbers, its zeros and its target indices are, each, the reference's: small terms, compared
    one by one, so that the sum per target node itself is never opened. -/
theorem scatter_dims_eq :
    scatter_S50000x64_S800000x1_S800000x64_1_0_0_1 = Cert.ReferenceIdeal.scatter_S50000x64_S800000x1_S800000x64_1_0_0_1 := rfl

theorem scatter_zeros_eq :
    (broadcastInDim S50000x64 ![] bcast_S_S50000x64 (constant (F := Ideal) S_ .f32 0x00000000#32) : S50000x64.Idx → EReal)
      = Cert.ReferenceIdeal.Read.val_main_v42 (F := Ideal) := rfl

theorem scatter_idx_eq (x3 : (⟨Cert.ReferenceIdeal.S2x800000, .i32⟩ : BufTy).Contents (Elt Ideal)) :
    broadcastInDim S800000x1 ![0] bcast_S800000_S800000x1_0 (Cert.ReferenceIdeal.Read.val_main_v1 (F := Ideal) x3)
      = Cert.ReferenceIdeal.Read.val_main_v43 (F := Ideal) x3 := rfl

/-- Window 1 of the update region: the messages added up per target node, as the reference adds them. -/
theorem entry_v49 (c : Dev nD) :
    (W3 m ρ c (Proc.devRef .tc main_v49) : S50000x64.Idx → EReal)
      = Cert.ReferenceIdeal.Hand.aggOf (m ((c : Thread nD τ).loc main_arg3)) (msgArr (V1 m ρ) c) := by
  have h : (W3 m ρ c (Proc.devRef .tc main_v49) : S50000x64.Idx → EReal)
      = truncf (F := Ideal) (φ := .f32) .bf16 (Host.scatterAdd (F := Ideal) (φ := .f32) scatter_S50000x64_S800000x1_S800000x64_1_0_0_1
          (broadcastInDim S50000x64 ![] bcast_S_S50000x64 (constant (F := Ideal) S_ .f32 0x00000000#32))
          (broadcastInDim S800000x1 ![0] bcast_S800000_S800000x1_0 (W2 m ρ c (Proc.devRef .tc main_v1)))
          (W2 m ρ c (Proc.devRef .tc main_v45) : S800000x64.Idx → EReal)) bitsLt_bf16_f32 := by
    show StableHlo.after hostOps1 _ (Proc.devRef .tc main_v49) = _
    after_results_simp <;> rfl
  rw [h, w2_v1 m ρ c, w2_v45 m ρ c, truncf_ideal, scatter_dims_eq, scatter_zeros_eq, scatter_idx_eq]
  unfold Cert.ReferenceIdeal.Hand.aggOf
  rfl

set_option maxHeartbeats 4000000 in
/-- Buffer main_v51 at the region's entry: rows 0 … 63 of argument 8 (a slice, then a change of format). -/
theorem entry_v51 (c : Dev nD) :
    (W3 m ρ c (Proc.devRef .tc main_v51) : S64x128.Idx → EReal) = rowsFrom 0 (by decide) (m ((c : Thread nD τ).loc main_arg8)) := by
  have h : (W3 m ρ c (Proc.devRef .tc main_v51) : S64x128.Idx → EReal)
      = truncf (F := Ideal) (φ := .f32) .bf16 (extractStridedSlice S64x128 ![0, 0] (W2 m ρ c (Proc.devRef .tc main_arg8) : S128x128.Idx → EReal) slices_S128x128_S64x128_0_0) bitsLt_bf16_f32 := by
    show StableHlo.after hostOps1 _ (Proc.devRef .tc main_v51) = _
    after_results_simp <;> rfl
  rw [h, w2_arg8 m ρ c]
  funext j
  obtain ⟨k, q, rfl⟩ : ∃ (k : Fin 64) (q : Fin 128), j = ix2 k q := ⟨j 0, j 1, eq_ix2 j⟩
  rw [truncf_apply, rowsFrom_apply]
  exact slice2_axis0_apply 0 _ _ k q (up 0 (by decide) k) rfl
set_option maxHeartbeats 4000000 in
/-- Buffer main_v53 at the region's entry: rows 64 … 127 of argument 8 (a slice, then a change of format). -/
theorem entry_v53 (c : Dev nD) :
    (W3 m ρ c (Proc.devRef .tc main_v53) : S64x128.Idx → EReal) = rowsFrom 64 (by decide) (m ((c : Thread nD τ).loc main_arg8)) := by
  have h : (W3 m ρ c (Proc.devRef .tc main_v53) : S64x128.Idx → EReal)
      = truncf (F := Ideal) (φ := .f32) .bf16 (extractStridedSlice S64x128 ![64, 0] (W2 m ρ c (Proc.devRef .tc main_arg8) : S128x128.Idx → EReal) slices_S128x128_S64x128_64_0) bitsLt_bf16_f32 := by
    show StableHlo.after hostOps1 _ (Proc.devRef .tc main_v53) = _
    after_results_simp <;> rfl
  rw [h, w2_arg8 m ρ c]
  funext j
  obtain ⟨k, q, rfl⟩ : ∃ (k : Fin 64) (q : Fin 128), j = ix2 k q := ⟨j 0, j 1, eq_ix2 j⟩
  rw [truncf_apply, rowsFrom_apply]
  exact slice2_axis0_apply 64 _ _ k q (up 64 (by decide) k) rfl
set_option maxHeartbeats 4000000 in
/-- Buffer main_v54 at the region's entry: argument 9 as a one-row matrix. -/
theorem entry_v54 (c : Dev nD) :
    (W3 m ρ c (Proc.devRef .tc main_v54) : S1x128.Idx → EReal) = asRow (m ((c : Thread nD τ).loc main_arg9)) := by
  have h : (W3 m ρ c (Proc.devRef .tc main_v54) : S1x128.Idx → EReal)
      = shapeCast S1x128 (W2 m ρ c (Proc.devRef .tc main_arg9) : S128.Idx → EReal) shapeCasts_S128_S1x128 := by
    show StableHlo.after hostOps1 _ (Proc.devRef .tc main_v54) = _
    after_results_simp <;> rfl
  rw [h, w2_arg9 m ρ c]
  funext j
  obtain ⟨z, q, rfl⟩ : ∃ (z : Fin 1) (q : Fin 128), j = ix2 z q := ⟨j 0, j 1, eq_ix2 j⟩
  rw [asRow_apply]
  exact shapeCast_a_1a_apply _ _ z q
set_option maxHeartbeats 4000000 in
/-- Buffer main_v55 at the region's entry: argument 10 (a change of format only). -/
theorem entry_v55 (c : Dev nD) :
    (W3 m ρ c (Proc.devRef .tc main_v55) : S128x64.Idx → EReal) = (m ((c : Thread nD τ).loc main_arg10)) := by
  have h : (W3 m ρ c (Proc.devRef .tc main_v55) : S128x64.Idx → EReal)
      = truncf (F := Ideal) (φ := .f32) .bf16 (W2 m ρ c (Proc.devRef .tc main_arg10) : S128x64.Idx → EReal) bitsLt_bf16_f32 := by
    show StableHlo.after hostOps1 _ (Proc.devRef .tc main_v55) = _
    after_results_simp <;> rfl
  rw [h, w2_arg10 m ρ c]
  rfl
set_option maxHeartbeats 4000000 in
/-- Buffer main_v56 at the region's entry: argument 11 as a one-row matrix. -/
theorem entry_v56 (c : Dev nD) :
    (W3 m ρ c (Proc.devRef .tc main_v56) : S1x64.Idx → EReal) = asRow (m ((c : Thread nD τ).loc main_arg11)) := by
  have h : (W3 m ρ c (Proc.devRef .tc main_v56) : S1x64.Idx → EReal)
      = shapeCast S1x64 (W2 m ρ c (Proc.devRef .tc main_arg11) : S64.Idx → EReal) shapeCasts_S64_S1x64 := by
    show StableHlo.after hostOps1 _ (Proc.devRef .tc main_v56) = _
    after_results_simp <;> rfl
  rw [h, w2_arg11 m ρ c]
  funext j
  obtain ⟨z, q, rfl⟩ : ∃ (z : Fin 1) (q : Fin 64), j = ix2 z q := ⟨j 0, j 1, eq_ix2 j⟩
  rw [asRow_apply]
  exact shapeCast_a_1a_apply _ _ z q

/-- What the update region leaves: the whole computation's specification, of the arguments. -/
theorem updArr_eq (c : Dev nD) :
    updArr (V3 m ρ) c
      = Cert.ReferenceIdeal.Hand.resG (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold updArr Cert.ReferenceIdeal.Hand.resG updG
  show mlp2 (n := 50000) (W3 m ρ c (Proc.devRef .tc main_v4)) (W3 m ρ c (Proc.devRef .tc main_v49)) (W3 m ρ c (Proc.devRef .tc main_v51))
      (W3 m ρ c (Proc.devRef .tc main_v53)) (W3 m ρ c (Proc.devRef .tc main_v54)) (W3 m ρ c (Proc.devRef .tc main_v55))
      (W3 m ρ c (Proc.devRef .tc main_v56)) = _
  rw [entry_v4 m ρ c, entry_v49 m ρ c, entry_v51 m ρ c, entry_v53 m ρ c, entry_v54 m ρ c, entry_v55 m ρ c, entry_v56 m ρ c,
    msgArr_eq m ρ c]

/-- The result buffer when @main returns: the specification of the arguments. -/
theorem result_value (c : Dev nD) :
    (W4 m ρ c (Proc.devRef .tc main_v57) : S50000x64.Idx → EReal)
      = Cert.ReferenceIdeal.Hand.resG (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W4_arr m ρ c 7).trans ((value1 (V3 m ρ) c).trans (updArr_eq m ρ c))

end Cert.KernelIdeal.Hand

end
-- ==== Proof.KernelRun.lean ====
/-
  The idealized kernel's run, with its result named.

  @main is four segments — host operations, the message region, host operations, the update region — and the
  library's launch theorem for such a program gives, for every weakly fair execution, termination without a fault in a
  state where every unscoped buffer holds the last boundary's contents (the fold W4 of the generated frame module). Read at
  the result buffer that is the update region's output array, which the two region lemmas and the two entry modules
  identify with the specification of the arguments; read at an argument it is the argument as launched.
-/
import proofs.«151477_j58737972740096_1_alg».proof.Proof.Gen.KernelIdeal.Frame
import proofs.«151477_j58737972740096_1_alg».proof.Proof.Entry1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v57) = W4 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v57 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end AnyInstance

/-- At the extended reals the result buffer ends at the specification of the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v57)
        = Cert.ReferenceIdeal.Hand.resG (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_value m ρ c), (h c).2⟩) (run_named m ρ)

end Cert.KernelIdeal.Hand

end
-- ==== Proof.lean ====
/-
  One round of message passing on a graph of 50000 nodes and 800000 edges, computed two ways, gives the same array over
  the extended reals.

  The reference gathers, for every edge, the node features and identifiers of its target and its source, lays the four
  rows end to end (192 columns), runs a two-layer perceptron with a positive-part nonlinearity over them, adds the
  messages up per target node, lays each node's features and aggregate end to end (128 columns) and runs a second such
  perceptron. The kernel program performs the same gathers and the same sum per target node on the host, and in between
  runs the two perceptrons as tiled matrix products, 8000 edges and then 5000 nodes at a time: it never lays rows end to
  end, but multiplies each piece by the matching row range of the first-layer weights and adds the partial products.

  The two agree entry by entry because (i) a finite sum over consecutive ranges of its index is the sum of the ranges'
  sums — associativity and commutativity of addition of extended reals, nothing else, so no entry needs to be finite —,
  (ii) a change of float format is the identity on extended reals, (iii) a row of a perceptron's output depends on the
  same row of its inputs only, so a tile of rows of the output is the perceptron of the tiles, and the tiles cover the
  rows, and (iv) the gathers and the sum per target node are the same functions applied to equal arrays on both sides,
  and are never opened.

  Modules: Spec (the perceptrons and the splitting of sums), Payload (what each kernel body stores), Region0 / Region1
  (what each tiled region leaves in its output array, from whatever it finds at its entry), Entry0 / Entry1 (what each
  region finds, read back through the host operations before it), KernelRun (the kernel program's run with its result
  named), RefValue (the reference's result stage by stage). The three frame claims are the generated frames; there is no
  rewrite of the kernel to account for, so the preservation claim is empty.
-/
import proofs.«151477_j58737972740096_1_alg».proof.Defs
import proofs.«151477_j58737972740096_1_alg».proof.Proof.Gen.Kernel
import proofs.«151477_j58737972740096_1_alg».proof.Proof.Gen.Kernel.Skeleton
import proofs.«151477_j58737972740096_1_alg».proof.Proof.Gen.Kernel.Launch
import proofs.«151477_j58737972740096_1_alg».proof.Proof.Gen.Kernel.Points
import proofs.«151477_j58737972740096_1_alg».proof.Proof.Gen.Kernel.Frame
import proofs.«151477_j58737972740096_1_alg».proof.Proof.Gen.KernelIdeal
import proofs.«151477_j58737972740096_1_alg».proof.Proof.Gen.KernelIdeal.Skeleton
import proofs.«151477_j58737972740096_1_alg».proof.Proof.Gen.KernelIdeal.Launch
import proofs.«151477_j58737972740096_1_alg».proof.Proof.Gen.KernelIdeal.Points
import proofs.«151477_j58737972740096_1_alg».proof.Proof.Gen.KernelIdeal.Frame
import proofs.«151477_j58737972740096_1_alg».proof.Proof.Gen.ReferenceIdeal
import proofs.«151477_j58737972740096_1_alg».proof.Proof.Gen.ReferenceIdeal.Read
import proofs.«151477_j58737972740096_1_alg».proof.Proof.Gen.Pre_finite_inputs
import proofs.«151477_j58737972740096_1_alg».proof.Proof.KernelRun
import proofs.«151477_j58737972740096_1_alg».proof.Proof.RefValue
import Idealize.ShloMosaic.Adequacy
import Idealize.ShloMosaic.Init

noncomputable section

namespace Cert.Proof

open Idealize.ShloMosaic Idealize.SL.Sem

/-- The kernel program as printed runs to the end, nothing faulting, its arguments unchanged. -/
theorem frame_kernel [Cert.Kernel.Facts] [Cert.Pre_finite_inputs.Facts] : Cert.frame_Kernel :=
  fun m ρ _ => Cert.Kernel.Gen.frame m ρ

/-- So does its reading at the extended reals. -/
theorem frame_kernelIdeal [Cert.KernelIdeal.Facts] [Cert.Pre_finite_inputs.Facts] : Cert.frame_KernelIdeal :=
  fun m ρ _ => Cert.KernelIdeal.Gen.frame m ρ

/-- The reference is host operations only: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the specification of the arguments in their result
    buffers: the kernel program by its run, the reference by its run read stage by stage; equal arguments give equal
    specifications. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v54_eq, Cert.ReferenceIdeal.Hand.result_eq, h0, h1, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
